-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x4 : Shape := ⟨3, ![2, 512, 4]⟩
abbrev S2x512x512 : Shape := ⟨3, ![2, 512, 512]⟩
abbrev S385x256 : Shape := ⟨2, ![385, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x4 : S_.BroadcastsInDim S2x512x4 (![] : Fin 0 → Fin S2x512x4.rank)
  reducesTo_S2x512x4_S_d0_1_2 : S2x512x4.ReducesTo [0, 1, 2] S_
  bcast_S_S2x512x512 : S_.BroadcastsInDim S2x512x512 (![] : Fin 0 → Fin S2x512x512.rank)
  reducesTo_S2x512x512_S_d0_1_2 : S2x512x512.ReducesTo [0, 1, 2] S_
  bcast_S_S385x256 : S_.BroadcastsInDim S385x256 (![] : Fin 0 → Fin S385x256.rank)
  reducesTo_S385x256_S_d0_1 : S385x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x1 .f32) (main_arg8 : FVec F S1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x1 .f32) (main_arg8 : FVec F S1 .f32) (main_v13 : IVec S_ 1) (main_v16 : IVec S385x256 1) : IVec S_ 1 :=
  let main_c_5 : IVec S_ 1 := constantI S_ 1 1#1
  let main_v17 : IVec S_ 1 := (fun x v => Host.reduce IntOp.andi x v reducesTo_S385x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S2x512x128 .f32) (main_arg1 : FVec F S2x512x4 .f32) (main_arg2 : FVec F S2x512x512 .f32) (main_arg3 : FVec F S385x256 .f32) (main_arg4 : FVec F S256 .f32) (main_arg5 : FVec F S256x256 .f32) (main_arg6 : FVec F S256 .f32) (main_arg7 : FVec F S256x1 .f32) (main_arg8 : FVec F S1 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x4 .f32 := Host.absf main_arg1
  let main_cst_0 : FVec F S_ .f32 := constant S_ .f32 0x7F800000#32
  let main_v5 : FVec F S2x512x4 .f32 := broadcastInDim S2x512x4 ![] bcast_S_S2x512x4 main_cst_0
  let main_v6 : IVec S2x512x4 1 := cmpf .olt main_v4 main_v5
  let main_c_1 : IVec S_ 1 := constantI S_ 1 1#1
  let main_v7 : IVec S_ 1 := (fun x v => Host.reduce IntOp.andi x v reducesTo_S2x512x4_S_d0_1_2 h_S_) main_v6 main_c_1
  let main_v8 : IVec S_ 1 := andi main_v3 main_v7
  let main_v9 : FVec F S2x512x512 .f32 := Host.absf main_arg2
  let main_cst_2 : FVec F S_ .f32 := constant S_ .f32 0x7F800000#32
  let main_v10 : FVec F S2x512x512 .f32 := broadcastInDim S2x512x512 ![] bcast_S_S2x512x512 main_cst_2
  let main_v11 : IVec S2x512x512 1 := cmpf .olt main_v9 main_v10
  let main_c_3 : IVec S_ 1 := constantI S_ 1 1#1
  let main_v12 : IVec S_ 1 := (fun x v => Host.reduce IntOp.andi x v reducesTo_S2x512x512_S_d0_1_2 h_S_) main_v11 main_c_3
  let main_v13 : IVec S_ 1 := andi main_v8 main_v12
  let main_v14 : FVec F S385x256 .f32 := Host.absf main_arg3
  let main_cst_4 : FVec F S_ .f32 := constant S_ .f32 0x7F800000#32
  let main_v15 : FVec F S385x256 .f32 := broadcastInDim S385x256 ![] bcast_S_S385x256 main_cst_4
  let main_v16 : IVec S385x256 1 := cmpf .olt main_v14 main_v15
  fn_part1 (F := F) main_arg4 main_arg5 main_arg6 main_arg7 main_arg8 main_v13 main_v16
-- ==== Kernel.lean ====
abbrev S2x512x128 : Shape := ⟨3, ![2, 512, 128]⟩
abbrev S2x512x4 : Shape := ⟨3, ![2, 512, 4]⟩
abbrev S2x512x512 : Shape := ⟨3, ![2, 512, 512]⟩
abbrev S385x256 : Shape := ⟨2, ![385, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x256 : Shape := ⟨2, ![128, 256]⟩
abbrev S1x256 : Shape := ⟨2, ![1, 256]⟩
abbrev S1x1 : Shape := ⟨2, ![1, 1]⟩
abbrev S1x32x128 : Shape := ⟨3, ![1, 32, 128]⟩
abbrev S1x128x128 : Shape := ⟨3, ![1, 128, 128]⟩
abbrev S32x128 : Shape := ⟨2, ![32, 128]⟩
abbrev S128x128 : Shape := ⟨2, ![128, 128]⟩
abbrev S32x256 : Shape := ⟨2, ![32, 256]⟩
abbrev S32x1x128 : Shape := ⟨3, ![32, 1, 128]⟩
abbrev S32x128x128 : Shape := ⟨3, ![32, 128, 128]⟩
abbrev S4096x128 : Shape := ⟨2, ![4096, 128]⟩
abbrev S4096x256 : Shape := ⟨2, ![4096, 256]⟩
abbrev S32x128x256 : Shape := ⟨3, ![32, 128, 256]⟩
abbrev S32x128x1 : Shape := ⟨3, ![32, 128, 1]⟩
abbrev S1x1x256 : Shape := ⟨3, ![1, 1, 256]⟩
abbrev S32x1x256 : Shape := ⟨3, ![32, 1, 256]⟩
abbrev S1x128x256 : Shape := ⟨3, ![1, 128, 256]⟩
abbrev S_ : Shape := ⟨0, ![]⟩
abbrev S512x512 : Shape := ⟨2, ![512, 512]⟩
abbrev S1x512x512 : Shape := ⟨3, ![1, 512, 512]⟩

abbrev nBuf : Space → Nat
  | .hbm => 40
  | .vmem => 17
  | .smem => 0
  | _ => 0

abbrev bufTy : (tb : Table) → Fin (tcTables nBuf tb) → BufTy
  | .hbm, ⟨0, _⟩ => ⟨S2x512x128, .f32⟩
  | .hbm, ⟨1, _⟩ => ⟨S2x512x4, .f32⟩
  | .hbm, ⟨2, _⟩ => ⟨S2x512x512, .f32⟩
  | .hbm, ⟨3, _⟩ => ⟨S385x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S128x256, .f32⟩
  | .hbm, ⟨10, _⟩ => ⟨S128x256, .bf16⟩
  | .hbm, ⟨11, _⟩ => ⟨S128x256, .f32⟩
  | .hbm, ⟨12, _⟩ => ⟨S128x256, .bf16⟩
  | .hbm, ⟨13, _⟩ => ⟨S128x256, .f32⟩
  | .hbm, ⟨14, _⟩ => ⟨S128x256, .bf16⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S256x256, .bf16⟩
  | .hbm, ⟨19, _⟩ => ⟨S1x256, .f32⟩
  | .hbm, ⟨20, _⟩ => ⟨S1x1, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S_, .f32⟩
  | .hbm, ⟨25, _⟩ => ⟨S2x512x512, .f32⟩
  | .hbm, ⟨26, _⟩ => ⟨S2x512x512, .f32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S512x512, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S1x512x512, .f32⟩
  | .hbm, ⟨38, _⟩ => ⟨S2x512x512, .f32⟩
  | .hbm, ⟨39, _⟩ => ⟨S2x512x512, .f32⟩
  | .local _ .vmem, ⟨0, _⟩ => ⟨S1x32x128, .f32⟩
  | .local _ .vmem, ⟨1, _⟩ => ⟨S1x32x128, .f32⟩
  | .local _ .vmem, ⟨2, _⟩ => ⟨S1x128x128, .f32⟩
  | .local _ .vmem, ⟨3, _⟩ => ⟨S1x128x128, .f32⟩
  | .local _ .vmem, ⟨4, _⟩ => ⟨S1x32x128, .f32⟩
  | .local _ .vmem, ⟨5, _⟩ => ⟨S1x32x128, .f32⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S1x256, .f32⟩
  | .local _ .vmem, ⟨14, _⟩ => ⟨S1x1, .f32⟩
  | .local _ .vmem, ⟨15, _⟩ => ⟨S1x32x128, .f32⟩
  | .local _ .vmem, ⟨16, _⟩ => ⟨S1x32x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

class Facts₀ : Prop where
  slices_S385x256_S128x256_0_0 : S385x256.Slices ![0, 0] S128x256
  bitsLt_bf16_f32 : FTy.bits .bf16 < FTy.bits .f32
  slices_S385x256_S128x256_128_0 : S385x256.Slices ![128, 0] S128x256
  slices_S385x256_S128x256_256_0 : S385x256.Slices ![256, 0] S128x256
  slices_S385x256_S1x256_384_0 : S385x256.Slices ![384, 0] S1x256
  shapeCasts_S256_S1x256 : S256.ShapeCasts S1x256
  shapeCasts_S256x1_S1x256 : S256x1.ShapeCasts S1x256
  shapeCasts_S1_S1x1 : S1.ShapeCasts S1x1
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  broadcasts_S1x256_S32x256 : S1x256.Broadcasts S32x256
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  shapeCasts_S32x128x128_S4096x128 : S32x128x128.ShapeCasts S4096x128
  shapeCasts_S4096x256_S32x128x256 : S4096x256.ShapeCasts S32x128x256
  shapeCasts_S32x128_S32x128x1 : S32x128.ShapeCasts S32x128x1
  shapeCasts_S256_S1x1x256 : S256.ShapeCasts S1x1x256
  broadcasts_S32x128x1_S32x128x256 : S32x128x1.Broadcasts S32x128x256
  broadcasts_S1x1x256_S32x128x256 : S1x1x256.Broadcasts S32x128x256
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S32x128x256_S4096x256 : S32x128x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S32x128x256_S32x128 : S32x128x256.Reduces [2] S32x128
  inpos_S1x1_p0_0 : ∀ a, (![0, 0] : Fin 2 → Nat) a < S1x1.size a
  shapeCasts_S32x128_S1x32x128 : S32x128.ShapeCasts S1x32x128
  transposes_S2x512x512_S2x512x512_0_2_1 : S2x512x512.Transposes [0, 2, 1] S2x512x512
  bcast_S_S2x512x512 : S_.BroadcastsInDim S2x512x512 (![] : Fin 0 → Fin S2x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S2x512x512_0_1_2 : S1x512x512.BroadcastsInDim S2x512x512 (![0, 1, 2] : Fin 3 → Fin S2x512x512.rank)
  dot_S32x128_S128x256_S32x256_1_0_0_1_n_n_wf : DotDims.WF S32x128 S128x256 S32x256 [1] [0] [0] [1] [] []
  dot_S128x128_S128x256_S128x256_1_0_0_1_n_n_wf : DotDims.WF S128x128 S128x256 S128x256 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128.size a ≤ S2x512x128.size a
  hwx0_0 : ∀ i : grid0.Coords, EltTy.bits .f32 = 32 ∨ (Rect.block (s := S2x512x128) S1x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S2x512x128.size a
  hwx0_1 : ∀ i : grid0.Coords, EltTy.bits .f32 = 32 ∨ (Rect.block (s := S2x512x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S2x512x512.size a
  hwx0_2 : ∀ i : grid0.Coords, EltTy.bits .f32 = 32 ∨ (Rect.block (s := S2x512x512) S1x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x32x128.size a ≤ S2x512x512.size a
  hwx0_12 : ∀ i : grid0.Coords, EltTy.bits .f32 = 32 ∨ (Rect.block (s := S2x512x512) S1x32x128.size (cc0_transform_12 i) (hinb0_12 i)).WholeWords (EltTy.packing .f32)

variable [Facts₀]

def dot_S32x128_S128x256_S32x256_1_0_0_1_n_n : DotDims S32x128 S128x256 S32x256 where
  lhsContracting := [1]
  rhsContracting := [0]
  lhsNonContracting := [0]
  rhsNonContracting := [1]
  lhsBatch := []
  rhsBatch := []
  wf := dot_S32x128_S128x256_S32x256_1_0_0_1_n_n_wf
def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x32x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2x512x128 : Shape := ⟨3, ![2, 512, 128]⟩
abbrev S2x512x4 : Shape := ⟨3, ![2, 512, 4]⟩
abbrev S2x512x512 : Shape := ⟨3, ![2, 512, 512]⟩
abbrev S385x256 : Shape := ⟨2, ![385, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2x512x1x128 : Shape := ⟨4, ![2, 512, 1, 128]⟩
abbrev S2x512x512x128 : Shape := ⟨4, ![2, 512, 512, 128]⟩
abbrev S2x1x512x128 : Shape := ⟨4, ![2, 1, 512, 128]⟩
abbrev S2x512x512x1 : Shape := ⟨4, ![2, 512, 512, 1]⟩
abbrev S2x512x512x385 : Shape := ⟨4, ![2, 512, 512, 385]⟩
abbrev S2x512x512x256 : Shape := ⟨4, ![2, 512, 512, 256]⟩
abbrev S1x1x1x256 : Shape := ⟨4, ![1, 1, 1, 256]⟩
abbrev S_ : Shape := ⟨0, ![]⟩
abbrev S1x1x1x1 : Shape := ⟨4, ![1, 1, 1, 1]⟩
abbrev S512x512 : Shape := ⟨2, ![512, 512]⟩
abbrev S1x512x512 : Shape := ⟨3, ![1, 512, 512]⟩

abbrev nBuf : Space → Nat
  | .hbm => 58
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x4, .f32⟩
  | .hbm, ⟨2, _⟩ => ⟨S2x512x512, .f32⟩
  | .hbm, ⟨3, _⟩ => ⟨S385x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S2x512x1x128, .f32⟩
  | .hbm, ⟨10, _⟩ => ⟨S2x512x512x128, .f32⟩
  | .hbm, ⟨11, _⟩ => ⟨S2x1x512x128, .f32⟩
  | .hbm, ⟨12, _⟩ => ⟨S2x512x512x128, .f32⟩
  | .hbm, ⟨13, _⟩ => ⟨S2x512x1x128, .f32⟩
  | .hbm, ⟨14, _⟩ => ⟨S2x1x512x128, .f32⟩
  | .hbm, ⟨15, _⟩ => ⟨S2x512x512x128, .f32⟩
  | .hbm, ⟨16, _⟩ => ⟨S2x512x512x128, .f32⟩
  | .hbm, ⟨17, _⟩ => ⟨S2x512x512x128, .f32⟩
  | .hbm, ⟨18, _⟩ => ⟨S2x512x512x128, .f32⟩
  | .hbm, ⟨19, _⟩ => ⟨S2x512x512x1, .f32⟩
  | .hbm, ⟨20, _⟩ => ⟨S2x512x512x385, .f32⟩
  | .hbm, ⟨21, _⟩ => ⟨S2x512x512x256, .f32⟩
  | .hbm, ⟨22, _⟩ => ⟨S1x1x1x256, .f32⟩
  | .hbm, ⟨23, _⟩ => ⟨S2x512x512x256, .f32⟩
  | .hbm, ⟨24, _⟩ => ⟨S2x512x512x256, .f32⟩
  | .hbm, ⟨25, _⟩ => ⟨S_, .f32⟩
  | .hbm, ⟨26, _⟩ => ⟨S2x512x512x256, .f32⟩
  | .hbm, ⟨27, _⟩ => ⟨S2x512x512x256, .f32⟩
  | .hbm, ⟨28, _⟩ => ⟨S2x512x512x256, .f32⟩
  | .hbm, ⟨29, _⟩ => ⟨S1x1x1x256, .f32⟩
  | .hbm, ⟨30, _⟩ => ⟨S2x512x512x256, .f32⟩
  | .hbm, ⟨31, _⟩ => ⟨S2x512x512x256, .f32⟩
  | .hbm, ⟨32, _⟩ => ⟨S_, .f32⟩
  | .hbm, ⟨33, _⟩ => ⟨S2x512x512x256, .f32⟩
  | .hbm, ⟨34, _⟩ => ⟨S2x512x512x256, .f32⟩
  | .hbm, ⟨35, _⟩ => ⟨S2x512x512x1, .f32⟩
  | .hbm, ⟨36, _⟩ => ⟨S1x1x1x1, .f32⟩
  | .hbm, ⟨37, _⟩ => ⟨S2x512x512x1, .f32⟩
  | .hbm, ⟨38, _⟩ => ⟨S2x512x512x1, .f32⟩
  | .hbm, ⟨39, _⟩ => ⟨S2x512x512, .f32⟩
  | .hbm, ⟨40, _⟩ => ⟨S2x512x512, .f32⟩
  | .hbm, ⟨41, _⟩ => ⟨S2x512x512, .f32⟩
  | .hbm, ⟨42, _⟩ => ⟨S_, .f32⟩
  | .hbm, ⟨43, _⟩ => ⟨S2x512x512, .f32⟩
  | .hbm, ⟨44, _⟩ => ⟨S2x512x512, .f32⟩
  | .hbm, ⟨45, _⟩ => ⟨S512x512, .i32⟩
  | .hbm, ⟨46, _⟩ => ⟨S512x512, .i32⟩
  | .hbm, ⟨47, _⟩ => ⟨S_, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S1x512x512, .f32⟩
  | .hbm, ⟨56, _⟩ => ⟨S2x512x512, .f32⟩
  | .hbm, ⟨57, _⟩ => ⟨S2x512x512, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_cst : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S2x512x128_S2x512x1x128_0_1_3 : S2x512x128.BroadcastsInDim S2x512x1x128 (![0, 1, 3] : Fin 3 → Fin S2x512x1x128.rank)
  bcast_S2x512x1x128_S2x512x512x128_0_1_2_3 : S2x512x1x128.BroadcastsInDim S2x512x512x128 (![0, 1, 2, 3] : Fin 4 → Fin S2x512x512x128.rank)
  bcast_S2x512x128_S2x1x512x128_0_2_3 : S2x512x128.BroadcastsInDim S2x1x512x128 (![0, 2, 3] : Fin 3 → Fin S2x1x512x128.rank)
  bcast_S2x1x512x128_S2x512x512x128_0_1_2_3 : S2x1x512x128.BroadcastsInDim S2x512x512x128 (![0, 1, 2, 3] : Fin 4 → Fin S2x512x512x128.rank)
  bcast_S2x512x512_S2x512x512x1_0_1_2 : S2x512x512.BroadcastsInDim S2x512x512x1 (![0, 1, 2] : Fin 3 → Fin S2x512x512x1.rank)
  concatenates_S2x512x512x128_S2x512x512x128_S2x512x512x128_S2x512x512x1_S2x512x512x385_d3 : Shape.Concatenates [S2x512x512x128, S2x512x512x128, S2x512x512x128, S2x512x512x1] S2x512x512x385 3
  bcast_S256_S1x1x1x256_3 : S256.BroadcastsInDim S1x1x1x256 (![3] : Fin 1 → Fin S1x1x1x256.rank)
  bcast_S1x1x1x256_S2x512x512x256_0_1_2_3 : S1x1x1x256.BroadcastsInDim S2x512x512x256 (![0, 1, 2, 3] : Fin 4 → Fin S2x512x512x256.rank)
  bcast_S_S2x512x512x256 : S_.BroadcastsInDim S2x512x512x256 (![] : Fin 0 → Fin S2x512x512x256.rank)
  bcast_S1_S1x1x1x1_3 : S1.BroadcastsInDim S1x1x1x1 (![3] : Fin 1 → Fin S1x1x1x1.rank)
  bcast_S1x1x1x1_S2x512x512x1_0_1_2_3 : S1x1x1x1.BroadcastsInDim S2x512x512x1 (![0, 1, 2, 3] : Fin 4 → Fin S2x512x512x1.rank)
  shapeCasts_S2x512x512x1_S2x512x512 : S2x512x512x1.ShapeCasts S2x512x512
  transposes_S2x512x512_S2x512x512_0_2_1 : S2x512x512.Transposes [0, 2, 1] S2x512x512
  bcast_S_S2x512x512 : S_.BroadcastsInDim S2x512x512 (![] : Fin 0 → Fin S2x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S2x512x512_0_1_2 : S1x512x512.BroadcastsInDim S2x512x512 (![0, 1, 2] : Fin 3 → Fin S2x512x512.rank)
  dot_S2x512x512x385_S385x256_S2x512x512x256_3_0_012_1_n_n_wf : DotDims.WF S2x512x512x385 S385x256 S2x512x512x256 [3] [0] [0, 1, 2] [1] [] []
  dot_S2x512x512x256_S256x256_S2x512x512x256_3_0_012_1_n_n_wf : DotDims.WF S2x512x512x256 S256x256 S2x512x512x256 [3] [0] [0, 1, 2] [1] [] []
  dot_S2x512x512x256_S256x1_S2x512x512x1_3_0_012_1_n_n_wf : DotDims.WF S2x512x512x256 S256x1 S2x512x512x1 [3] [0] [0, 1, 2] [1] [] []

variable [Facts₀]

def dot_S2x512x512x385_S385x256_S2x512x512x256_3_0_012_1_n_n : DotDims S2x512x512x385 S385x256 S2x512x512x256 where
  lhsContracting := [3]
  rhsContracting := [0]
  lhsNonContracting := [0, 1, 2]
  rhsNonContracting := [1]
  lhsBatch := []
  rhsBatch := []
  wf := dot_S2x512x512x385_S385x256_S2x512x512x256_3_0_012_1_n_n_wf
def dot_S2x512x512x256_S256x256_S2x512x512x256_3_0_012_1_n_n : DotDims S2x512x512x256 S256x256 S2x512x512x256 where
  lhsContracting := [3]
  rhsContracting := [0]
  lhsNonContracting := [0, 1, 2]
  rhsNonContracting := [1]
  lhsBatch := []
  rhsBatch := []
  wf := dot_S2x512x512x256_S256x256_S2x512x512x256_3_0_012_1_n_n_wf
def dot_S2x512x512x256_S256x1_S2x512x512x1_3_0_012_1_n_n : DotDims S2x512x512x256 S256x1 S2x512x512x1 where
  lhsContracting := [3]
  rhsContracting := [0]
  lhsNonContracting := [0, 1, 2]
  rhsNonContracting := [1]
  lhsBatch := []
  rhsBatch := []
  wf := dot_S2x512x512x256_S256x1_S2x512x512x1_3_0_012_1_n_n_wf

class Facts : Prop extends Facts₀ where

variable [Facts]
-- ==== Proof.KbBody.lean ====
/-
  The kernel body on whole staging buffers.

  At one grid point the body reads twelve input blocks — a tile of 32 embedding rows, a tile of 128 embedding rows,
  the 32 × 128 tile of distances between them, three 128-row bands and the last row of the first layer's matrix, the
  first bias, the second layer's matrix and bias, the third layer's row and bias — and overwrites the 32 × 128 output
  block with one value computed from them (the skeleton's payload `k0_pay1` of the part's payloads). It also reads
  the output block once, and ignores what it read. So whatever the output buffer held, afterwards it holds that value,
  and every input buffer is as it was.
-/
import proofs.«170733_j62732292325617_2_alg».proof.Proof.Gen.Kernel.Launch
import proofs.«170733_j62732292325617_2_alg».proof.Proof.Gen.Kernel.Skeleton
import proofs.«170733_j62732292325617_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every access of the body is of a whole buffer: one rectangle per buffer shape. -/
abbrev rA : Rect S1x32x128 := Rect.unit (s := S1x32x128) ![0, 0, 0] S1x32x128.size inb_S1x32x128_S1x32x128_0_0_0
abbrev rB : Rect S1x128x128 := Rect.unit (s := S1x128x128) ![0, 0, 0] S1x128x128.size inb_S1x128x128_S1x128x128_0_0_0
abbrev rC : Rect S128x256 := Rect.unit (s := S128x256) ![0, 0] S128x256.size inb_S128x256_S128x256_0_0
abbrev rD : Rect S1x256 := Rect.unit (s := S1x256) ![0, 0] S1x256.size inb_S1x256_S1x256_0_0
abbrev rE : Rect S256x256 := Rect.unit (s := S256x256) ![0, 0] S256x256.size inb_S256x256_S256x256_0_0
abbrev rF : Rect S1x1 := Rect.unit (s := S1x1) ![0, 0] S1x1.size inb_S1x1_S1x1_0_0

/-- The value the body stores, from the twelve input blocks as loaded. -/
def stored (x0 : Vec F S1x32x128 .f32) (x1 : Vec F S1x128x128 .f32) (x2 : Vec F S1x32x128 .f32)
    (x3 x4 x5 : Vec F S128x256 .bf16) (x6 x7 : Vec F S1x256 .f32) (x8 : Vec F S256x256 .bf16) (x9 x10 : Vec F S1x256 .f32)
    (x11 : Vec F S1x1 .f32) : Vec F S1x32x128 .f32 :=
  k0_pay1 (k0_pay4 (View.ld x0 rA) (View.ld x3 rC) (View.ld x7 rD)) (k0_pay5 (View.ld x1 rB) (View.ld x4 rC))
    (k0_pay6 (View.ld x0 rA) (View.ld x1 rB) (View.ld x5 rC)) (k0_pay7 (View.ld x2 rA)) (k0_pay8 (View.ld x6 rD))
    (View.ld x8 rE) (View.ld x9 rD) (View.ld x10 rD) (View.ld x11 rF)

/-- What the output buffer holds after the body: its one store, which covers the buffer. -/
def outBlock (x0 : Vec F S1x32x128 .f32) (x1 : Vec F S1x128x128 .f32) (x2 : Vec F S1x32x128 .f32)
    (x3 x4 x5 : Vec F S128x256 .bf16) (x6 x7 : Vec F S1x256 .f32) (x8 : Vec F S256x256 .bf16) (x9 x10 : Vec F S1x256 .f32)
    (x11 : Vec F S1x1 .f32) : Vec F S1x32x128 .f32 :=
  View.canon [⟨rA, stored x0 x1 x2 x3 x4 x5 x6 x7 x8 x9 x10 x11⟩]

/-- The one store is of the whole buffer. -/
theorem cover (p0 : Vec F S1x32x128 .f32) (y : S1x32x128.Idx) :
    ∃ pc ∈ ([⟨rA, p0⟩] : List (View.Piece (Elt F) S1x32x128 .f32)), y ∈ pc.1.set :=
  View.cover_of_tiled [⟨rA, p0⟩] S1x32x128.size (by rfl) y

local notation "𝕄" => MT nD τ sig Unit (Elt F) ℕ (UR sig nD τ) ℕ

set_option maxHeartbeats 4000000 in
/-- The body's triple: the inputs' buffers at the contents read and the output's at anything, it runs to the
    continuation holding the inputs' as they were and the output's at `outBlock` of the inputs'. -/
theorem sound_kernel (c : Dev nD) (E : Set ℕ) (i : grid0.Coords)
    (arg3 : Memref sig .tc .vmem S1x32x128 .f32) (harg3 : arg3.IsWhole) (arg4 : Memref sig .tc .vmem S1x128x128 .f32) (harg4 : arg4.IsWhole)
    (arg5 : Memref sig .tc .vmem S1x32x128 .f32) (harg5 : arg5.IsWhole) (arg6 : Memref sig .tc .vmem S128x256 .bf16) (harg6 : arg6.IsWhole)
    (arg7 : Memref sig .tc .vmem S128x256 .bf16) (harg7 : arg7.IsWhole) (arg8 : Memref sig .tc .vmem S128x256 .bf16) (harg8 : arg8.IsWhole)
    (arg9 : Memref sig .tc .vmem S1x256 .f32) (harg9 : arg9.IsWhole) (arg10 : Memref sig .tc .vmem S1x256 .f32) (harg10 : arg10.IsWhole)
    (arg11 : Memref sig .tc .vmem S256x256 .bf16) (harg11 : arg11.IsWhole) (arg12 : Memref sig .tc .vmem S1x256 .f32) (harg12 : arg12.IsWhole)
    (arg13 : Memref sig .tc .vmem S1x256 .f32) (harg13 : arg13.IsWhole) (arg14 : Memref sig .tc .vmem S1x1 .f32) (harg14 : arg14.IsWhole)
    (arg15 : Memref sig .tc .vmem S1x32x128 .f32) (harg15 : arg15.IsWhole)
    (x0 : Vec F S1x32x128 .f32) (x1 : Vec F S1x128x128 .f32) (x2 : Vec F S1x32x128 .f32)
    (x3 x4 x5 : Vec F S128x256 .bf16) (x6 x7 : Vec F S1x256 .f32) (x8 : Vec F S256x256 .bf16) (x9 x10 : Vec F S1x256 .f32)
    (x11 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7 ∗ owns (c : Thread nD τ) arg11 fullShare x8
        ∗ owns (c : Thread nD τ) arg12 fullShare x9 ∗ owns (c : Thread nD τ) arg13 fullShare x10 ∗ owns (c : Thread nD τ) arg14 fullShare x11
        ∗ (∃ d, owns (c : Thread nD τ) arg15 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7 ∗ owns (c : Thread nD τ) arg11 fullShare x8
            ∗ owns (c : Thread nD τ) arg12 fullShare x9 ∗ owns (c : Thread nD τ) arg13 fullShare x10 ∗ owns (c : Thread nD τ) arg14 fullShare x11
            ∗ owns (c : Thread nD τ) arg15 fullShare (outBlock x0 x1 x2 x3 x4 x5 x6 x7 x8 x9 x10 x11)) -∗ K ⟨⟩))
      ⊢ wp frame (wpE (defs₀ (F := F)) Variants.none c none) E
          (cc0__pair_mlp_kernel i arg3 harg3 arg4 harg4 arg5 harg5 arg6 harg6 arg7 harg7 arg8 harg8 arg9 harg9 arg10 harg10
            arg11 harg11 arg12 harg12 arg13 harg13 arg14 harg14 arg15 harg15) K := by
  simp only [cc0__pair_mlp_kernel_eq_skeleton]; unfold cc0__pair_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover _)

end Cert.Kernel.Body

end
-- ==== Proof.KbRun.lean ====
/-
  The run of the whole program: the host operations before the kernel region, the region over its 128 grid points,
  the host operations after it.

  The region's thirteen windows stand on twelve arrays: the first two windows (the tile of rows `i` and the tile of
  rows `j`) both read the embeddings array. The array's ownership is therefore dealt in two halves, one to each
  window, and put together again when the region ends; every other array goes to its window whole. Since no window
  but the last is written, each input array ends as it was; the last window's array ends, block by block, at what
  the body left at the point whose block it is. The host operations after the region then read that array.
-/
import proofs.«170733_j62732292325617_2_alg».proof.Proof.KbBody
import Idealize.ShloMosaic.Lib.Pipeline.Regions

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents along the program -/

/-- Core `c`'s buffers at launch, -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The pipeline's proof data -/

/-- The arrays as the region finds them; after the body at a point each input's buffer at its block and the output's at
    `outBlock` of the input blocks; nothing carried between points; the embeddings array dealt in halves to its two
    windows; nothing owed. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => iblk m ρ c 7 t
    | ⟨8, _⟩ => iblk m ρ c 8 t
    | ⟨9, _⟩ => iblk m ρ c 9 t
    | ⟨10, _⟩ => iblk m ρ c 10 t
    | ⟨11, _⟩ => iblk m ρ c 11 t
    | ⟨12, _⟩ => outBlock (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (iblk m ρ c 10 t) (iblk m ρ c 11 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) : (dats m ρ 0 c).after 5 t = iblk m ρ c 5 t := by dsimp only [dats]
theorem after_6 (c : Dev nD) (t : Fin cfg0.N) : (dats m ρ 0 c).after 6 t = iblk m ρ c 6 t := by dsimp only [dats]
theorem after_7 (c : Dev nD) (t : Fin cfg0.N) : (dats m ρ 0 c).after 7 t = iblk m ρ c 7 t := by dsimp only [dats]
theorem after_8 (c : Dev nD) (t : Fin cfg0.N) : (dats m ρ 0 c).after 8 t = iblk m ρ c 8 t := by dsimp only [dats]
theorem after_9 (c : Dev nD) (t : Fin cfg0.N) : (dats m ρ 0 c).after 9 t = iblk m ρ c 9 t := by dsimp only [dats]
theorem after_10 (c : Dev nD) (t : Fin cfg0.N) : (dats m ρ 0 c).after 10 t = iblk m ρ c 10 t := by dsimp only [dats]
theorem after_11 (c : Dev nD) (t : Fin cfg0.N) : (dats m ρ 0 c).after 11 t = iblk m ρ c 11 t := by dsimp only [dats]
theorem after_12 (c : Dev nD) (t : Fin cfg0.N) : (dats m ρ 0 c).after 12 t = outBlock (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (iblk m ρ c 10 t) (iblk m ρ c 11 t) := by dsimp only [dats]

theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m ρ 0 c).before 6 t d = iblk m ρ c 6 t :=
  ((dats m ρ 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m ρ 0 c).before 7 t d = iblk m ρ c 7 t :=
  ((dats m ρ 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m ρ 0 c).before 8 t d = iblk m ρ c 8 t :=
  ((dats m ρ 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m ρ 0 c).before 9 t d = iblk m ρ c 9 t :=
  ((dats m ρ 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m ρ 0 c).before 10 t d = iblk m ρ c 10 t :=
  ((dats m ρ 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m ρ 0 c).before 11 t d = iblk m ρ c 11 t :=
  ((dats m ρ 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

theorem share_0 (c : Dev nD) : (dats m ρ 0 c).share 0 = fullShare.left := rfl
theorem share_1 (c : Dev nD) : (dats m ρ 0 c).share 1 = fullShare.right := rfl
theorem share_2 (c : Dev nD) : (dats m ρ 0 c).share 2 = fullShare := rfl
theorem share_3 (c : Dev nD) : (dats m ρ 0 c).share 3 = fullShare := rfl
theorem share_4 (c : Dev nD) : (dats m ρ 0 c).share 4 = fullShare := rfl
theorem share_5 (c : Dev nD) : (dats m ρ 0 c).share 5 = fullShare := rfl
theorem share_6 (c : Dev nD) : (dats m ρ 0 c).share 6 = fullShare := rfl
theorem share_7 (c : Dev nD) : (dats m ρ 0 c).share 7 = fullShare := rfl
theorem share_8 (c : Dev nD) : (dats m ρ 0 c).share 8 = fullShare := rfl
theorem share_9 (c : Dev nD) : (dats m ρ 0 c).share 9 = fullShare := rfl
theorem share_10 (c : Dev nD) : (dats m ρ 0 c).share 10 = fullShare := rfl
theorem share_11 (c : Dev nD) : (dats m ρ 0 c).share 11 = fullShare := rfl
theorem share_12 (c : Dev nD) : (dats m ρ 0 c).share 12 = fullShare := rfl

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d))
    ∗ (∃ d, owns (c : Thread nD τ) (st0_7 t) fullShare ((dats m ρ 0 c).before 7 t d))
    ∗ (∃ d, owns (c : Thread nD τ) (st0_8 t) fullShare ((dats m ρ 0 c).before 8 t d))
    ∗ (∃ d, owns (c : Thread nD τ) (st0_9 t) fullShare ((dats m ρ 0 c).before 9 t d))
    ∗ (∃ d, owns (c : Thread nD τ) (st0_10 t) fullShare ((dats m ρ 0 c).before 10 t d))
    ∗ (∃ d, owns (c : Thread nD τ) (st0_11 t) fullShare ((dats m ρ 0 c).before 11 t d))
    ∗ (∃ d, owns (c : Thread nD τ) (st0_12 t) fullShare ((dats m ρ 0 c).before 12 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t)
    ∗ owns (c : Thread nD τ) (st0_7 t) fullShare ((dats m ρ 0 c).after 7 t)
    ∗ owns (c : Thread nD τ) (st0_8 t) fullShare ((dats m ρ 0 c).after 8 t)
    ∗ owns (c : Thread nD τ) (st0_9 t) fullShare ((dats m ρ 0 c).after 9 t)
    ∗ owns (c : Thread nD τ) (st0_10 t) fullShare ((dats m ρ 0 c).after 10 t)
    ∗ owns (c : Thread nD τ) (st0_11 t) fullShare ((dats m ρ 0 c).after 11 t)
    ∗ owns (c : Thread nD τ) (st0_12 t) fullShare ((dats m ρ 0 c).after 12 t))

set_option maxHeartbeats 2000000 in
/-- The body at any point: the inputs' buffers hold their blocks, so the body's triple applies; the invariant and the
    core's dues pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4, before_5, before_6, before_7, before_8, before_9, before_10, before_11]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (iblk m ρ c 10 t) (iblk m ρ c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m ρ 0 c) (defs₀ (F := F)) Variants.none () Set.univ := fun t => by
  rw [bigSep_W0, bigSep_W0]
  exact sound_body m ρ c t

/-! ## The arrays dealt to the windows, and gathered again -/

/-- The twelve arrays behind the thirteen windows. -/
theorem arrRefs_eq : Finset.univ.image (Pipeline.arrRef spec0) = ([main_arg0, main_arg2, main_v1, main_v3, main_v5, main_v6, main_v7, main_v9, main_v8, main_v10, main_v11, main_v12] : List (Ref sig .tc)).toFinset := by decide

/-- A conjunction over those twelve buffers, one by one. -/
theorem bigSep_refs {M : Type} [URA M] (Φ : Ref sig .tc → sProp M) :
    bigSep (Finset.univ.image (Pipeline.arrRef spec0)) Φ = iprop(Φ main_arg0 ∗ Φ main_arg2 ∗ Φ main_v1 ∗ Φ main_v3 ∗ Φ main_v5 ∗ Φ main_v6 ∗ Φ main_v7 ∗ Φ main_v9 ∗ Φ main_v8 ∗ Φ main_v10 ∗ Φ main_v11 ∗ Φ main_v12) :=
  bigSep_eq_bigSepL_of_eq [main_arg0, main_arg2, main_v1, main_v3, main_v5, main_v6, main_v7, main_v9, main_v8, main_v10, main_v11, main_v12] arrRefs_eq (by decide) Φ

/-- The pipeline's arrays at contents read off a valuation `Wv` are the twelve buffers behind them at `Wv`, each whole:
    the embeddings array's two halves are one whole. Both directions. -/
theorem arrays_iff (c : Dev nD) (Wv : (b : Ref sig .tc) → Buf (Elt F) ((c : Thread nD τ).loc b))
    (G : (w : Fin cfg0.W) → Buf (Elt F) ((cfg0.win w).arr.view.loc (c : Thread nD τ))) (hG : ∀ w, G w = Wv (Pipeline.arrRef spec0 w)) :
    ((Pipeline.arrBufs spec0 c Wv : sProp 𝕄) ⊢ (dats m ρ 0 c).arrays G)
      ∧ ((dats m ρ 0 c).arrays G ⊢ (Pipeline.arrBufs spec0 c Wv : sProp 𝕄)) := by
  obtain rfl : G = fun w => Wv (Pipeline.arrRef spec0 w) := funext hG
  have e : (dats m ρ 0 c).arrays (fun w => Wv (Pipeline.arrRef spec0 w))
      = bigSep Finset.univ fun w : Fin 13 => ((((c : Thread nD τ).loc (Pipeline.arrRef spec0 w)) ↦{(dats m ρ 0 c).share w} Wv (Pipeline.arrRef spec0 w)) : sProp 𝕄) := by
    unfold Dat.arrays
    exact bigSep_congr fun w _ => by rw [(arr_whole0 w).set_eq_univ]
  rw [e, bigSep_W0]
  unfold Pipeline.arrBufs
  rw [bigSep_refs]
  simp only [share_0, share_1, share_2, share_3, share_4, share_5, share_6, share_7, share_8, share_9, share_10, share_11, share_12]
  constructor
  · iintro ⟨Ha0, Ha2, Hv1, Hv3, Hv5, Hv6, Hv7, Hv9, Hv8, Hv10, Hv11, Hv12⟩
    ihave Hs := (pointsTo_share (PosShare.mem_left_op_right fullShare)).1 $$ Ha0
    icases Hs with ⟨HaL, HaR⟩
    isplitl [HaL]; · iexact HaL
    isplitl [HaR]; · iexact HaR
    isplitl [Ha2]; · iexact Ha2
    isplitl [Hv1]; · iexact Hv1
    isplitl [Hv3]; · iexact Hv3
    isplitl [Hv5]; · iexact Hv5
    isplitl [Hv6]; · iexact Hv6
    isplitl [Hv7]; · iexact Hv7
    isplitl [Hv9]; · iexact Hv9
    isplitl [Hv8]; · iexact Hv8
    isplitl [Hv10]; · iexact Hv10
    isplitl [Hv11]; · iexact Hv11
    iexact Hv12
  · iintro ⟨HaL, HaR, Ha2, Hv1, Hv3, Hv5, Hv6, Hv7, Hv9, Hv8, Hv10, Hv11, Hv12⟩
    isplitl [HaL HaR]
    · iapply (pointsTo_share (PosShare.mem_left_op_right fullShare)).2
      isplitl [HaL]; · iexact HaL
      iexact HaR
    isplitl [Ha2]; · iexact Ha2
    isplitl [Hv1]; · iexact Hv1
    isplitl [Hv3]; · iexact Hv3
    isplitl [Hv5]; · iexact Hv5
    isplitl [Hv6]; · iexact Hv6
    isplitl [Hv7]; · iexact Hv7
    isplitl [Hv9]; · iexact Hv9
    isplitl [Hv8]; · iexact Hv8
    isplitl [Hv10]; · iexact Hv10
    isplitl [Hv11]; · iexact Hv11
    iexact Hv12

end Cert.Kernel.Run

end
-- ==== Proof.KbLaunch.lean ====
/-
  The launch: the program as three segments — the host operations before the region, the region, the host
  operations after it — and what every final state holds.

  The thread of the proof between segments is the core's unscoped buffers, each whole, at a valuation: the launch
  contents; then those after the first host operations; then, the region having run, the same with the region's
  output array at what the 128 points left in it; then those after the last host operations. Read against a final
  state, that last valuation is what the memory holds.
-/
import proofs.«170733_j62732292325617_2_alg».proof.Proof.KbRun

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-- The output array when the region ends. -/
abbrev outArr (c : Dev nD) : Buf (Elt F) ((c : Thread nD τ).loc main_v12) := (dats m ρ 0 c).arrAt 12 cfg0.N

open Classical in
/-- Core `c`'s buffers when the region ends: as it found them, but for its output array. -/
def V1 (c : Dev nD) : Valuation τ sig (Elt F) :=
  Function.update (StableHlo.after hostOps0 (V₀ m ρ c)) (Proc.devRef .tc main_v12) (outArr m ρ c)

theorem V1_self (c : Dev nD) : V1 m ρ c (Proc.devRef .tc main_v12) = outArr m ρ c := by
  unfold V1; exact Function.update_self ..

theorem V1_of_ne (c : Dev nD) (b : Ref sig .tc) (hb : b ≠ main_v12) : V1 m ρ c (Proc.devRef .tc b) = V m ρ c b := by
  unfold V1; exact Function.update_of_ne (StableHlo.devRef_ne_of_ne hb) _ _

theorem exit_0 (c : Dev nD) : (dats m ρ 0 c).arrAt 0 cfg0.N = V1 m ρ c (Proc.devRef .tc (Pipeline.arrRef spec0 0)) := by
  rw [(dats m ρ 0 c).arrAt_in 0 rfl, A_eq]; exact (V1_of_ne m ρ c _ (by decide)).symm
theorem exit_1 (c : Dev nD) : (dats m ρ 0 c).arrAt 1 cfg0.N = V1 m ρ c (Proc.devRef .tc (Pipeline.arrRef spec0 1)) := by
  rw [(dats m ρ 0 c).arrAt_in 1 rfl, A_eq]; exact (V1_of_ne m ρ c _ (by decide)).symm
theorem exit_2 (c : Dev nD) : (dats m ρ 0 c).arrAt 2 cfg0.N = V1 m ρ c (Proc.devRef .tc (Pipeline.arrRef spec0 2)) := by
  rw [(dats m ρ 0 c).arrAt_in 2 rfl, A_eq]; exact (V1_of_ne m ρ c _ (by decide)).symm
theorem exit_3 (c : Dev nD) : (dats m ρ 0 c).arrAt 3 cfg0.N = V1 m ρ c (Proc.devRef .tc (Pipeline.arrRef spec0 3)) := by
  rw [(dats m ρ 0 c).arrAt_in 3 rfl, A_eq]; exact (V1_of_ne m ρ c _ (by decide)).symm
theorem exit_4 (c : Dev nD) : (dats m ρ 0 c).arrAt 4 cfg0.N = V1 m ρ c (Proc.devRef .tc (Pipeline.arrRef spec0 4)) := by
  rw [(dats m ρ 0 c).arrAt_in 4 rfl, A_eq]; exact (V1_of_ne m ρ c _ (by decide)).symm
theorem exit_5 (c : Dev nD) : (dats m ρ 0 c).arrAt 5 cfg0.N = V1 m ρ c (Proc.devRef .tc (Pipeline.arrRef spec0 5)) := by
  rw [(dats m ρ 0 c).arrAt_in 5 rfl, A_eq]; exact (V1_of_ne m ρ c _ (by decide)).symm
theorem exit_6 (c : Dev nD) : (dats m ρ 0 c).arrAt 6 cfg0.N = V1 m ρ c (Proc.devRef .tc (Pipeline.arrRef spec0 6)) := by
  rw [(dats m ρ 0 c).arrAt_in 6 rfl, A_eq]; exact (V1_of_ne m ρ c _ (by decide)).symm
theorem exit_7 (c : Dev nD) : (dats m ρ 0 c).arrAt 7 cfg0.N = V1 m ρ c (Proc.devRef .tc (Pipeline.arrRef spec0 7)) := by
  rw [(dats m ρ 0 c).arrAt_in 7 rfl, A_eq]; exact (V1_of_ne m ρ c _ (by decide)).symm
theorem exit_8 (c : Dev nD) : (dats m ρ 0 c).arrAt 8 cfg0.N = V1 m ρ c (Proc.devRef .tc (Pipeline.arrRef spec0 8)) := by
  rw [(dats m ρ 0 c).arrAt_in 8 rfl, A_eq]; exact (V1_of_ne m ρ c _ (by decide)).symm
theorem exit_9 (c : Dev nD) : (dats m ρ 0 c).arrAt 9 cfg0.N = V1 m ρ c (Proc.devRef .tc (Pipeline.arrRef spec0 9)) := by
  rw [(dats m ρ 0 c).arrAt_in 9 rfl, A_eq]; exact (V1_of_ne m ρ c _ (by decide)).symm
theorem exit_10 (c : Dev nD) : (dats m ρ 0 c).arrAt 10 cfg0.N = V1 m ρ c (Proc.devRef .tc (Pipeline.arrRef spec0 10)) := by
  rw [(dats m ρ 0 c).arrAt_in 10 rfl, A_eq]; exact (V1_of_ne m ρ c _ (by decide)).symm
theorem exit_11 (c : Dev nD) : (dats m ρ 0 c).arrAt 11 cfg0.N = V1 m ρ c (Proc.devRef .tc (Pipeline.arrRef spec0 11)) := by
  rw [(dats m ρ 0 c).arrAt_in 11 rfl, A_eq]; exact (V1_of_ne m ρ c _ (by decide)).symm

/-- Every window's array ends at that valuation's contents: an input's as found, the output's as left. -/
theorem exit_eq (c : Dev nD) (w : Fin cfg0.W) :
    (dats m ρ 0 c).arrAt w cfg0.N = V1 m ρ c (Proc.devRef .tc (Pipeline.arrRef spec0 w)) := by
  match w with
  | ⟨0, _⟩ => exact exit_0 m ρ c
  | ⟨1, _⟩ => exact exit_1 m ρ c
  | ⟨2, _⟩ => exact exit_2 m ρ c
  | ⟨3, _⟩ => exact exit_3 m ρ c
  | ⟨4, _⟩ => exact exit_4 m ρ c
  | ⟨5, _⟩ => exact exit_5 m ρ c
  | ⟨6, _⟩ => exact exit_6 m ρ c
  | ⟨7, _⟩ => exact exit_7 m ρ c
  | ⟨8, _⟩ => exact exit_8 m ρ c
  | ⟨9, _⟩ => exact exit_9 m ρ c
  | ⟨10, _⟩ => exact exit_10 m ρ c
  | ⟨11, _⟩ => exact exit_11 m ρ c
  | ⟨12, _⟩ => exact (V1_self m ρ c).symm

/-- The buffers that bypass the region are not its output array. -/
theorem rest_eq (c : Dev nD) :
    (Pipeline.unscopedRest spec0 c (V m ρ c) : sProp 𝕄) = Pipeline.unscopedRest spec0 c (fun b => V1 m ρ c (Proc.devRef .tc b)) := by
  unfold Pipeline.unscopedRest
  refine bigSep_congr fun b hb => ?_
  have hne : b ≠ main_v12 := fun e => by
    subst e
    exact (Finset.mem_sdiff.mp hb).2 (Finset.mem_image.mpr ⟨12, Finset.mem_univ _, rfl⟩)
  beta_reduce
  rw [V1_of_ne m ρ c b hne]

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The host operations after it. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m ρ) R

set_option backward.isDefEq.respectTransparency.types false in
/-- The region: entered from the buffers the first host operations left — the twelve arrays to the windows, the
    embeddings array in halves, every other buffer bypassing —, left with the arrays gathered again. -/
def reg0 : Pipeline.RegionSeg (pcfgs (F := F)) adm (dats m ρ) () defs₀ 𝒱₀ L lv 0 where
  win := winFacts₀0
  block_pos := block_pos0
  stage_whole := stage_whole0
  K := PEmpty
  osem := fun k : PEmpty => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V1 m ρ c) ∗ R c)
  X c := iprop(emp)
  Y c := iprop(emp)
  Z c := Pipeline.unscopedRest spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Hab, Hrest⟩, HO⟩, -, -⟩
    ihave Ha := (arrays_iff m ρ c (V m ρ c) ((dats m ρ 0 c).arrAt · 0) (fun _ => rfl)).1 $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V1 m ρ c) = unscopedBufs c (fun b => V1 m ρ c (Proc.devRef .tc b)) from (Pipeline.unscopedBufs_held c _).symm,
      Pipeline.unscopedBufs_split₀ cfgs 0 winFacts₀0.arr_unscoped c (fun b => V1 m ρ c (Proc.devRef .tc b)), ← rest_eq]
    iintro ⟨Ha, HO, -, HZ⟩
    ihave Hb := (arrays_iff m ρ c (fun b => V1 m ρ c (Proc.devRef .tc b)) ((dats m ρ 0 c).arrAt · cfg0.N) (exit_eq m ρ c)).2 $$ Ha
    imodintro
    isplitr [HO]
    · isplitl [Hb]; · iexact Hb
      iexact HZ
    · unfold Pipeline.Dat.owesAt Pipeline.owesWithin
      icases HO with ⟨%W, -, HO⟩; iexists W; iexact HO

/-- The program as the list of the three. -/
abbrev segs : List (Pipeline.Seg (pcfgs (F := F)) adm (dats m ρ) () defs₀ 𝒱₀ L lv) := [.host (seg0 m ρ), .region (reg0 m ρ), .host (seg1 m ρ)]

/-- What every final state holds: each unscoped buffer at the last valuation. -/
def QC : PUnit × MemSt nD τ sig (Elt F) → Prop := fun r =>
  ∀ c : Dev nD, ∀ b ∈ Pipeline.ucRefs τ sig, r.2.mem ((c : Thread nD τ).1, b) = StableHlo.after hostOps1 (V1 m ρ c) b

set_option backward.isDefEq.respectTransparency.types false in
/-- From any memory with zero counters every weakly fair execution of the program terminates, nothing faulting, and
    every final state holds each unscoped buffer at the last valuation. -/
theorem run_main : θ_run defs (onTc (τ := τ) (main (F := F))) (s₀ m ρ) (QC m ρ) :=
  Pipeline.θ_run_regions_kit (pcfgs (F := F)) adm (dats m ρ) () cellOf_inj emb₁ defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (V1 m ρ c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = StableHlo.after hostOps1 (V1 m ρ c) b)
    (hfin := fun c s' => by
      unfold StableHlo.held
      iintro ⟨Hh, HSI⟩
      ihave Hr := (pointsTo_read_all (Pipeline.ucRefs τ sig) (fun b => ((c : Thread nD τ).1, b)) (StableHlo.after hostOps1 (V1 m ρ c)) s') $$ [Hh HSI]
      · isplitl [Hh] <;> iassumption
      icases Hr with ⟨%h, HSI⟩
      imodintro
      isplitr; · ipureintro; exact h
      iexact HSI)
    (hQ := fun _ h => h)

end Cert.Kernel.Run

end
-- ==== Proof.KbFrame.lean ====
/-
  The argument arrays end as they were launched: no host operation writes one, and the region writes only its
  output array.
-/
import proofs.«170733_j62732292325617_2_alg».proof.Proof.KbLaunch

set_option maxRecDepth 16384

noncomputable section

namespace Cert.Kernel.Run

open Cert.Kernel Cert.Kernel.Gen Cert.Kernel.Body
open Idealize.ShloMosaic Idealize.ShloMosaic.TcCoe Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- An unscoped reference of the TensorCore is among the buffers the run accounts for. -/
theorem mem_uc (b : Ref sig .tc) (hb : (Proc.devRef .tc b : DevRef τ sig).isScoped = false) :
    Proc.devRef .tc b ∈ Pipeline.ucRefs τ sig :=
  Finset.mem_filter.mpr ⟨Finset.mem_map.mpr ⟨b, Finset.mem_univ _, rfl⟩, fun h => Bool.false_ne_true (hb.symm.trans h)⟩

theorem kept_arg0 (c : Dev nD) :
    StableHlo.after hostOps1 (V1 m ρ c) (Proc.devRef .tc main_arg0) = m ((c : Thread nD τ).loc main_arg0) := by
  have h1 : StableHlo.after hostOps1 (V1 m ρ c) (Proc.devRef .tc main_arg0) = V1 m ρ c (Proc.devRef .tc main_arg0) := by
    dsimp only [hostOps1]; after_results
  rw [h1, V1_of_ne m ρ c main_arg0 (by decide)]
  show StableHlo.after hostOps0 (V₀ m ρ c) (Proc.devRef .tc main_arg0) = _
  dsimp only [hostOps0]; after_results
theorem kept_arg1 (c : Dev nD) :
    StableHlo.after hostOps1 (V1 m ρ c) (Proc.devRef .tc main_arg1) = m ((c : Thread nD τ).loc main_arg1) := by
  have h1 : StableHlo.after hostOps1 (V1 m ρ c) (Proc.devRef .tc main_arg1) = V1 m ρ c (Proc.devRef .tc main_arg1) := by
    dsimp only [hostOps1]; after_results
  rw [h1, V1_of_ne m ρ c main_arg1 (by decide)]
  show StableHlo.after hostOps0 (V₀ m ρ c) (Proc.devRef .tc main_arg1) = _
  dsimp only [hostOps0]; after_results
theorem kept_arg2 (c : Dev nD) :
    StableHlo.after hostOps1 (V1 m ρ c) (Proc.devRef .tc main_arg2) = m ((c : Thread nD τ).loc main_arg2) := by
  have h1 : StableHlo.after hostOps1 (V1 m ρ c) (Proc.devRef .tc main_arg2) = V1 m ρ c (Proc.devRef .tc main_arg2) := by
    dsimp only [hostOps1]; after_results
  rw [h1, V1_of_ne m ρ c main_arg2 (by decide)]
  show StableHlo.after hostOps0 (V₀ m ρ c) (Proc.devRef .tc main_arg2) = _
  dsimp only [hostOps0]; after_results
theorem kept_arg3 (c : Dev nD) :
    StableHlo.after hostOps1 (V1 m ρ c) (Proc.devRef .tc main_arg3) = m ((c : Thread nD τ).loc main_arg3) := by
  have h1 : StableHlo.after hostOps1 (V1 m ρ c) (Proc.devRef .tc main_arg3) = V1 m ρ c (Proc.devRef .tc main_arg3) := by
    dsimp only [hostOps1]; after_results
  rw [h1, V1_of_ne m ρ c main_arg3 (by decide)]
  show StableHlo.after hostOps0 (V₀ m ρ c) (Proc.devRef .tc main_arg3) = _
  dsimp only [hostOps0]; after_results
theorem kept_arg4 (c : Dev nD) :
    StableHlo.after hostOps1 (V1 m ρ c) (Proc.devRef .tc main_arg4) = m ((c : Thread nD τ).loc main_arg4) := by
  have h1 : StableHlo.after hostOps1 (V1 m ρ c) (Proc.devRef .tc main_arg4) = V1 m ρ c (Proc.devRef .tc main_arg4) := by
    dsimp only [hostOps1]; after_results
  rw [h1, V1_of_ne m ρ c main_arg4 (by decide)]
  show StableHlo.after hostOps0 (V₀ m ρ c) (Proc.devRef .tc main_arg4) = _
  dsimp only [hostOps0]; after_results
theorem kept_arg5 (c : Dev nD) :
    StableHlo.after hostOps1 (V1 m ρ c) (Proc.devRef .tc main_arg5) = m ((c : Thread nD τ).loc main_arg5) := by
  have h1 : StableHlo.after hostOps1 (V1 m ρ c) (Proc.devRef .tc main_arg5) = V1 m ρ c (Proc.devRef .tc main_arg5) := by
    dsimp only [hostOps1]; after_results
  rw [h1, V1_of_ne m ρ c main_arg5 (by decide)]
  show StableHlo.after hostOps0 (V₀ m ρ c) (Proc.devRef .tc main_arg5) = _
  dsimp only [hostOps0]; after_results
theorem kept_arg6 (c : Dev nD) :
    StableHlo.after hostOps1 (V1 m ρ c) (Proc.devRef .tc main_arg6) = m ((c : Thread nD τ).loc main_arg6) := by
  have h1 : StableHlo.after hostOps1 (V1 m ρ c) (Proc.devRef .tc main_arg6) = V1 m ρ c (Proc.devRef .tc main_arg6) := by
    dsimp only [hostOps1]; after_results
  rw [h1, V1_of_ne m ρ c main_arg6 (by decide)]
  show StableHlo.after hostOps0 (V₀ m ρ c) (Proc.devRef .tc main_arg6) = _
  dsimp only [hostOps0]; after_results
theorem kept_arg7 (c : Dev nD) :
    StableHlo.after hostOps1 (V1 m ρ c) (Proc.devRef .tc main_arg7) = m ((c : Thread nD τ).loc main_arg7) := by
  have h1 : StableHlo.after hostOps1 (V1 m ρ c) (Proc.devRef .tc main_arg7) = V1 m ρ c (Proc.devRef .tc main_arg7) := by
    dsimp only [hostOps1]; after_results
  rw [h1, V1_of_ne m ρ c main_arg7 (by decide)]
  show StableHlo.after hostOps0 (V₀ m ρ c) (Proc.devRef .tc main_arg7) = _
  dsimp only [hostOps0]; after_results
theorem kept_arg8 (c : Dev nD) :
    StableHlo.after hostOps1 (V1 m ρ c) (Proc.devRef .tc main_arg8) = m ((c : Thread nD τ).loc main_arg8) := by
  have h1 : StableHlo.after hostOps1 (V1 m ρ c) (Proc.devRef .tc main_arg8) = V1 m ρ c (Proc.devRef .tc main_arg8) := by
    dsimp only [hostOps1]; after_results
  rw [h1, V1_of_ne m ρ c main_arg8 (by decide)]
  show StableHlo.after hostOps0 (V₀ m ρ c) (Proc.devRef .tc main_arg8) = _
  dsimp only [hostOps0]; after_results

/-- The frame: the program runs to the end, faulting nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 rfl)).trans (kept_arg0 m ρ c),
      (h c _ (mem_uc main_arg1 rfl)).trans (kept_arg1 m ρ c),
      (h c _ (mem_uc main_arg2 rfl)).trans (kept_arg2 m ρ c),
      (h c _ (mem_uc main_arg3 rfl)).trans (kept_arg3 m ρ c),
      (h c _ (mem_uc main_arg4 rfl)).trans (kept_arg4 m ρ c),
      (h c _ (mem_uc main_arg5 rfl)).trans (kept_arg5 m ρ c),
      (h c _ (mem_uc main_arg6 rfl)).trans (kept_arg6 m ρ c),
      (h c _ (mem_uc main_arg7 rfl)).trans (kept_arg7 m ρ c),
      (h c _ (mem_uc main_arg8 rfl)).trans (kept_arg8 m ρ c)⟩) (run_main m ρ)

end Cert.Kernel.Run

end
-- ==== Proof.KiBody.lean ====
/-
  The kernel body on whole staging buffers.

  At one grid point the body reads twelve input blocks — a tile of 32 embedding rows, a tile of 128 embedding rows,
  the 32 × 128 tile of distances between them, three 128-row bands and the last row of the first layer's matrix, the
  first bias, the second layer's matrix and bias, the third layer's row and bias — and overwrites the 32 × 128 output
  block with one value computed from them (the skeleton's payload `k0_pay1` of the part's payloads). It also reads
  the output block once, and ignores what it read. So whatever the output buffer held, afterwards it holds that value,
  and every input buffer is as it was.
-/
import proofs.«170733_j62732292325617_2_alg».proof.Proof.Gen.KernelIdeal.Launch
import proofs.«170733_j62732292325617_2_alg».proof.Proof.Gen.KernelIdeal.Skeleton
import proofs.«170733_j62732292325617_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Every access of the body is of a whole buffer: one rectangle per buffer shape. -/
abbrev rA : Rect S1x32x128 := Rect.unit (s := S1x32x128) ![0, 0, 0] S1x32x128.size inb_S1x32x128_S1x32x128_0_0_0
abbrev rB : Rect S1x128x128 := Rect.unit (s := S1x128x128) ![0, 0, 0] S1x128x128.size inb_S1x128x128_S1x128x128_0_0_0
abbrev rC : Rect S128x256 := Rect.unit (s := S128x256) ![0, 0] S128x256.size inb_S128x256_S128x256_0_0
abbrev rD : Rect S1x256 := Rect.unit (s := S1x256) ![0, 0] S1x256.size inb_S1x256_S1x256_0_0
abbrev rE : Rect S256x256 := Rect.unit (s := S256x256) ![0, 0] S256x256.size inb_S256x256_S256x256_0_0
abbrev rF : Rect S1x1 := Rect.unit (s := S1x1) ![0, 0] S1x1.size inb_S1x1_S1x1_0_0

/-- The value the body stores, from the twelve input blocks as loaded. -/
def stored (x0 : Vec F S1x32x128 .f32) (x1 : Vec F S1x128x128 .f32) (x2 : Vec F S1x32x128 .f32)
    (x3 x4 x5 : Vec F S128x256 .bf16) (x6 x7 : Vec F S1x256 .f32) (x8 : Vec F S256x256 .bf16) (x9 x10 : Vec F S1x256 .f32)
    (x11 : Vec F S1x1 .f32) : Vec F S1x32x128 .f32 :=
  k0_pay1 (k0_pay4 (View.ld x0 rA) (View.ld x3 rC) (View.ld x7 rD)) (k0_pay5 (View.ld x1 rB) (View.ld x4 rC))
    (k0_pay6 (View.ld x0 rA) (View.ld x1 rB) (View.ld x5 rC)) (k0_pay7 (View.ld x2 rA)) (k0_pay8 (View.ld x6 rD))
    (View.ld x8 rE) (View.ld x9 rD) (View.ld x10 rD) (View.ld x11 rF)

/-- What the output buffer holds after the body: its one store, which covers the buffer. -/
def outBlock (x0 : Vec F S1x32x128 .f32) (x1 : Vec F S1x128x128 .f32) (x2 : Vec F S1x32x128 .f32)
    (x3 x4 x5 : Vec F S128x256 .bf16) (x6 x7 : Vec F S1x256 .f32) (x8 : Vec F S256x256 .bf16) (x9 x10 : Vec F S1x256 .f32)
    (x11 : Vec F S1x1 .f32) : Vec F S1x32x128 .f32 :=
  View.canon [⟨rA, stored x0 x1 x2 x3 x4 x5 x6 x7 x8 x9 x10 x11⟩]

/-- The one store is of the whole buffer. -/
theorem cover (p0 : Vec F S1x32x128 .f32) (y : S1x32x128.Idx) :
    ∃ pc ∈ ([⟨rA, p0⟩] : List (View.Piece (Elt F) S1x32x128 .f32)), y ∈ pc.1.set :=
  View.cover_of_tiled [⟨rA, p0⟩] S1x32x128.size (by rfl) y

local notation "𝕄" => MT nD τ sig Unit (Elt F) ℕ (UR sig nD τ) ℕ

set_option maxHeartbeats 4000000 in
/-- The body's triple: the inputs' buffers at the contents read and the output's at anything, it runs to the
    continuation holding the inputs' as they were and the output's at `outBlock` of the inputs'. -/
theorem sound_kernel (c : Dev nD) (E : Set ℕ) (i : grid0.Coords)
    (arg3 : Memref sig .tc .vmem S1x32x128 .f32) (harg3 : arg3.IsWhole) (arg4 : Memref sig .tc .vmem S1x128x128 .f32) (harg4 : arg4.IsWhole)
    (arg5 : Memref sig .tc .vmem S1x32x128 .f32) (harg5 : arg5.IsWhole) (arg6 : Memref sig .tc .vmem S128x256 .bf16) (harg6 : arg6.IsWhole)
    (arg7 : Memref sig .tc .vmem S128x256 .bf16) (harg7 : arg7.IsWhole) (arg8 : Memref sig .tc .vmem S128x256 .bf16) (harg8 : arg8.IsWhole)
    (arg9 : Memref sig .tc .vmem S1x256 .f32) (harg9 : arg9.IsWhole) (arg10 : Memref sig .tc .vmem S1x256 .f32) (harg10 : arg10.IsWhole)
    (arg11 : Memref sig .tc .vmem S256x256 .bf16) (harg11 : arg11.IsWhole) (arg12 : Memref sig .tc .vmem S1x256 .f32) (harg12 : arg12.IsWhole)
    (arg13 : Memref sig .tc .vmem S1x256 .f32) (harg13 : arg13.IsWhole) (arg14 : Memref sig .tc .vmem S1x1 .f32) (harg14 : arg14.IsWhole)
    (arg15 : Memref sig .tc .vmem S1x32x128 .f32) (harg15 : arg15.IsWhole)
    (x0 : Vec F S1x32x128 .f32) (x1 : Vec F S1x128x128 .f32) (x2 : Vec F S1x32x128 .f32)
    (x3 x4 x5 : Vec F S128x256 .bf16) (x6 x7 : Vec F S1x256 .f32) (x8 : Vec F S256x256 .bf16) (x9 x10 : Vec F S1x256 .f32)
    (x11 : Vec F S1x1 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare x5
        ∗ owns (c : Thread nD τ) arg9 fullShare x6 ∗ owns (c : Thread nD τ) arg10 fullShare x7 ∗ owns (c : Thread nD τ) arg11 fullShare x8
        ∗ owns (c : Thread nD τ) arg12 fullShare x9 ∗ owns (c : Thread nD τ) arg13 fullShare x10 ∗ owns (c : Thread nD τ) arg14 fullShare x11
        ∗ (∃ d, owns (c : Thread nD τ) arg15 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ owns (c : Thread nD τ) arg8 fullShare x5
            ∗ owns (c : Thread nD τ) arg9 fullShare x6 ∗ owns (c : Thread nD τ) arg10 fullShare x7 ∗ owns (c : Thread nD τ) arg11 fullShare x8
            ∗ owns (c : Thread nD τ) arg12 fullShare x9 ∗ owns (c : Thread nD τ) arg13 fullShare x10 ∗ owns (c : Thread nD τ) arg14 fullShare x11
            ∗ owns (c : Thread nD τ) arg15 fullShare (outBlock x0 x1 x2 x3 x4 x5 x6 x7 x8 x9 x10 x11)) -∗ K ⟨⟩))
      ⊢ wp frame (wpE (defs₀ (F := F)) Variants.none c none) E
          (cc0__pair_mlp_kernel i arg3 harg3 arg4 harg4 arg5 harg5 arg6 harg6 arg7 harg7 arg8 harg8 arg9 harg9 arg10 harg10
            arg11 harg11 arg12 harg12 arg13 harg13 arg14 harg14 arg15 harg15) K := by
  simp only [cc0__pair_mlp_kernel_eq_skeleton]; unfold cc0__pair_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover _)

end Cert.KernelIdeal.Body

end
-- ==== Proof.KiRun.lean ====
/-
  The run of the whole program: the host operations before the kernel region, the region over its 128 grid points,
  the host operations after it.

  The region's thirteen windows stand on twelve arrays: the first two windows (the tile of rows `i` and the tile of
  rows `j`) both read the embeddings array. The array's ownership is therefore dealt in two halves, one to each
  window, and put together again when the region ends; every other array goes to its window whole. Since no window
  but the last is written, each input array ends as it was; the last window's array ends, block by block, at what
  the body left at the point whose block it is. The host operations after the region then read that array.
-/
import proofs.«170733_j62732292325617_2_alg».proof.Proof.KiBody
import Idealize.ShloMosaic.Lib.Pipeline.Regions

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents along the program -/

/-- Core `c`'s buffers at launch, -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-! ## The pipeline's proof data -/

/-- The arrays as the region finds them; after the body at a point each input's buffer at its block and the output's at
    `outBlock` of the input blocks; nothing carried between points; the embeddings array dealt in halves to its two
    windows; nothing owed. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => iblk m ρ c 6 t
    | ⟨7, _⟩ => iblk m ρ c 7 t
    | ⟨8, _⟩ => iblk m ρ c 8 t
    | ⟨9, _⟩ => iblk m ρ c 9 t
    | ⟨10, _⟩ => iblk m ρ c 10 t
    | ⟨11, _⟩ => iblk m ρ c 11 t
    | ⟨12, _⟩ => outBlock (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (iblk m ρ c 10 t) (iblk m ρ c 11 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m ρ 0 c).A w = V m ρ c (Pipeline.arrRef spec0 w) := by
  dsimp only [dats]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) : (dats m ρ 0 c).after 5 t = iblk m ρ c 5 t := by dsimp only [dats]
theorem after_6 (c : Dev nD) (t : Fin cfg0.N) : (dats m ρ 0 c).after 6 t = iblk m ρ c 6 t := by dsimp only [dats]
theorem after_7 (c : Dev nD) (t : Fin cfg0.N) : (dats m ρ 0 c).after 7 t = iblk m ρ c 7 t := by dsimp only [dats]
theorem after_8 (c : Dev nD) (t : Fin cfg0.N) : (dats m ρ 0 c).after 8 t = iblk m ρ c 8 t := by dsimp only [dats]
theorem after_9 (c : Dev nD) (t : Fin cfg0.N) : (dats m ρ 0 c).after 9 t = iblk m ρ c 9 t := by dsimp only [dats]
theorem after_10 (c : Dev nD) (t : Fin cfg0.N) : (dats m ρ 0 c).after 10 t = iblk m ρ c 10 t := by dsimp only [dats]
theorem after_11 (c : Dev nD) (t : Fin cfg0.N) : (dats m ρ 0 c).after 11 t = iblk m ρ c 11 t := by dsimp only [dats]
theorem after_12 (c : Dev nD) (t : Fin cfg0.N) : (dats m ρ 0 c).after 12 t = outBlock (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (iblk m ρ c 10 t) (iblk m ρ c 11 t) := by dsimp only [dats]

theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m ρ 0 c).before 6 t d = iblk m ρ c 6 t :=
  ((dats m ρ 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m ρ 0 c).before 7 t d = iblk m ρ c 7 t :=
  ((dats m ρ 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m ρ 0 c).before 8 t d = iblk m ρ c 8 t :=
  ((dats m ρ 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m ρ 0 c).before 9 t d = iblk m ρ c 9 t :=
  ((dats m ρ 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m ρ 0 c).before 10 t d = iblk m ρ c 10 t :=
  ((dats m ρ 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m ρ 0 c).before 11 t d = iblk m ρ c 11 t :=
  ((dats m ρ 0 c).before_in_eq_fetched 11 rfl (fun _ => rfl) (fun _ _ _ => rfl)
    (fun t => by rw [after_11]; unfold Dat.blockOf iblk; rw [A_eq]; try rfl) t d).trans
    (by unfold Dat.fetched Dat.blockOf iblk; rw [A_eq]; try rfl)

theorem share_0 (c : Dev nD) : (dats m ρ 0 c).share 0 = fullShare.left := rfl
theorem share_1 (c : Dev nD) : (dats m ρ 0 c).share 1 = fullShare.right := rfl
theorem share_2 (c : Dev nD) : (dats m ρ 0 c).share 2 = fullShare := rfl
theorem share_3 (c : Dev nD) : (dats m ρ 0 c).share 3 = fullShare := rfl
theorem share_4 (c : Dev nD) : (dats m ρ 0 c).share 4 = fullShare := rfl
theorem share_5 (c : Dev nD) : (dats m ρ 0 c).share 5 = fullShare := rfl
theorem share_6 (c : Dev nD) : (dats m ρ 0 c).share 6 = fullShare := rfl
theorem share_7 (c : Dev nD) : (dats m ρ 0 c).share 7 = fullShare := rfl
theorem share_8 (c : Dev nD) : (dats m ρ 0 c).share 8 = fullShare := rfl
theorem share_9 (c : Dev nD) : (dats m ρ 0 c).share 9 = fullShare := rfl
theorem share_10 (c : Dev nD) : (dats m ρ 0 c).share 10 = fullShare := rfl
theorem share_11 (c : Dev nD) : (dats m ρ 0 c).share 11 = fullShare := rfl
theorem share_12 (c : Dev nD) : (dats m ρ 0 c).share 12 = fullShare := rfl

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d))
    ∗ (∃ d, owns (c : Thread nD τ) (st0_7 t) fullShare ((dats m ρ 0 c).before 7 t d))
    ∗ (∃ d, owns (c : Thread nD τ) (st0_8 t) fullShare ((dats m ρ 0 c).before 8 t d))
    ∗ (∃ d, owns (c : Thread nD τ) (st0_9 t) fullShare ((dats m ρ 0 c).before 9 t d))
    ∗ (∃ d, owns (c : Thread nD τ) (st0_10 t) fullShare ((dats m ρ 0 c).before 10 t d))
    ∗ (∃ d, owns (c : Thread nD τ) (st0_11 t) fullShare ((dats m ρ 0 c).before 11 t d))
    ∗ (∃ d, owns (c : Thread nD τ) (st0_12 t) fullShare ((dats m ρ 0 c).before 12 t d)))

def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t)
    ∗ owns (c : Thread nD τ) (st0_7 t) fullShare ((dats m ρ 0 c).after 7 t)
    ∗ owns (c : Thread nD τ) (st0_8 t) fullShare ((dats m ρ 0 c).after 8 t)
    ∗ owns (c : Thread nD τ) (st0_9 t) fullShare ((dats m ρ 0 c).after 9 t)
    ∗ owns (c : Thread nD τ) (st0_10 t) fullShare ((dats m ρ 0 c).after 10 t)
    ∗ owns (c : Thread nD τ) (st0_11 t) fullShare ((dats m ρ 0 c).after 11 t)
    ∗ owns (c : Thread nD τ) (st0_12 t) fullShare ((dats m ρ 0 c).after 12 t))

set_option maxHeartbeats 2000000 in
/-- The body at any point: the inputs' buffers hold their blocks, so the body's triple applies; the invariant and the
    core's dues pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4, before_5, before_6, before_7, before_8, before_9, before_10, before_11]
  rw [show (dats m ρ 0 c).Φ t.succ = (dats m ρ 0 c).Φ t.castSucc from rfl,
    show (dats m ρ 0 c).owesAt () t.succ = (dats m ρ 0 c).owesAt () t.castSucc from rfl,
    after_0, after_1, after_2, after_3, after_4, after_5, after_6, after_7, after_8, after_9, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m ρ c 0 t) (iblk m ρ c 1 t) (iblk m ρ c 2 t) (iblk m ρ c 3 t) (iblk m ρ c 4 t) (iblk m ρ c 5 t) (iblk m ρ c 6 t) (iblk m ρ c 7 t) (iblk m ρ c 8 t) (iblk m ρ c 9 t) (iblk m ρ c 10 t) (iblk m ρ c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m ρ 0 c) (defs₀ (F := F)) Variants.none () Set.univ := fun t => by
  rw [bigSep_W0, bigSep_W0]
  exact sound_body m ρ c t

/-! ## The arrays dealt to the windows, and gathered again -/

/-- The twelve arrays behind the thirteen windows. -/
theorem arrRefs_eq : Finset.univ.image (Pipeline.arrRef spec0) = ([main_arg0, main_arg2, main_v1, main_v3, main_v5, main_v6, main_v7, main_v9, main_v8, main_v10, main_v11, main_v12] : List (Ref sig .tc)).toFinset := by decide

/-- A conjunction over those twelve buffers, one by one. -/
theorem bigSep_refs {M : Type} [URA M] (Φ : Ref sig .tc → sProp M) :
    bigSep (Finset.univ.image (Pipeline.arrRef spec0)) Φ = iprop(Φ main_arg0 ∗ Φ main_arg2 ∗ Φ main_v1 ∗ Φ main_v3 ∗ Φ main_v5 ∗ Φ main_v6 ∗ Φ main_v7 ∗ Φ main_v9 ∗ Φ main_v8 ∗ Φ main_v10 ∗ Φ main_v11 ∗ Φ main_v12) :=
  bigSep_eq_bigSepL_of_eq [main_arg0, main_arg2, main_v1, main_v3, main_v5, main_v6, main_v7, main_v9, main_v8, main_v10, main_v11, main_v12] arrRefs_eq (by decide) Φ

/-- The pipeline's arrays at contents read off a valuation `Wv` are the twelve buffers behind them at `Wv`, each whole:
    the embeddings array's two halves are one whole. Both directions. -/
theorem arrays_iff (c : Dev nD) (Wv : (b : Ref sig .tc) → Buf (Elt F) ((c : Thread nD τ).loc b))
    (G : (w : Fin cfg0.W) → Buf (Elt F) ((cfg0.win w).arr.view.loc (c : Thread nD τ))) (hG : ∀ w, G w = Wv (Pipeline.arrRef spec0 w)) :
    ((Pipeline.arrBufs spec0 c Wv : sProp 𝕄) ⊢ (dats m ρ 0 c).arrays G)
      ∧ ((dats m ρ 0 c).arrays G ⊢ (Pipeline.arrBufs spec0 c Wv : sProp 𝕄)) := by
  obtain rfl : G = fun w => Wv (Pipeline.arrRef spec0 w) := funext hG
  have e : (dats m ρ 0 c).arrays (fun w => Wv (Pipeline.arrRef spec0 w))
      = bigSep Finset.univ fun w : Fin 13 => ((((c : Thread nD τ).loc (Pipeline.arrRef spec0 w)) ↦{(dats m ρ 0 c).share w} Wv (Pipeline.arrRef spec0 w)) : sProp 𝕄) := by
    unfold Dat.arrays
    exact bigSep_congr fun w _ => by rw [(arr_whole0 w).set_eq_univ]
  rw [e, bigSep_W0]
  unfold Pipeline.arrBufs
  rw [bigSep_refs]
  simp only [share_0, share_1, share_2, share_3, share_4, share_5, share_6, share_7, share_8, share_9, share_10, share_11, share_12]
  constructor
  · iintro ⟨Ha0, Ha2, Hv1, Hv3, Hv5, Hv6, Hv7, Hv9, Hv8, Hv10, Hv11, Hv12⟩
    ihave Hs := (pointsTo_share (PosShare.mem_left_op_right fullShare)).1 $$ Ha0
    icases Hs with ⟨HaL, HaR⟩
    isplitl [HaL]; · iexact HaL
    isplitl [HaR]; · iexact HaR
    isplitl [Ha2]; · iexact Ha2
    isplitl [Hv1]; · iexact Hv1
    isplitl [Hv3]; · iexact Hv3
    isplitl [Hv5]; · iexact Hv5
    isplitl [Hv6]; · iexact Hv6
    isplitl [Hv7]; · iexact Hv7
    isplitl [Hv9]; · iexact Hv9
    isplitl [Hv8]; · iexact Hv8
    isplitl [Hv10]; · iexact Hv10
    isplitl [Hv11]; · iexact Hv11
    iexact Hv12
  · iintro ⟨HaL, HaR, Ha2, Hv1, Hv3, Hv5, Hv6, Hv7, Hv9, Hv8, Hv10, Hv11, Hv12⟩
    isplitl [HaL HaR]
    · iapply (pointsTo_share (PosShare.mem_left_op_right fullShare)).2
      isplitl [HaL]; · iexact HaL
      iexact HaR
    isplitl [Ha2]; · iexact Ha2
    isplitl [Hv1]; · iexact Hv1
    isplitl [Hv3]; · iexact Hv3
    isplitl [Hv5]; · iexact Hv5
    isplitl [Hv6]; · iexact Hv6
    isplitl [Hv7]; · iexact Hv7
    isplitl [Hv9]; · iexact Hv9
    isplitl [Hv8]; · iexact Hv8
    isplitl [Hv10]; · iexact Hv10
    isplitl [Hv11]; · iexact Hv11
    iexact Hv12

end Cert.KernelIdeal.Run

end
-- ==== Proof.KiLaunch.lean ====
/-
  The launch: the program as three segments — the host operations before the region, the region, the host
  operations after it — and what every final state holds.

  The thread of the proof between segments is the core's unscoped buffers, each whole, at a valuation: the launch
  contents; then those after the first host operations; then, the region having run, the same with the region's
  output array at what the 128 points left in it; then those after the last host operations. Read against a final
  state, that last valuation is what the memory holds.
-/
import proofs.«170733_j62732292325617_2_alg».proof.Proof.KiRun

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-- The output array when the region ends. -/
abbrev outArr (c : Dev nD) : Buf (Elt F) ((c : Thread nD τ).loc main_v12) := (dats m ρ 0 c).arrAt 12 cfg0.N

open Classical in
/-- Core `c`'s buffers when the region ends: as it found them, but for its output array. -/
def V1 (c : Dev nD) : Valuation τ sig (Elt F) :=
  Function.update (StableHlo.after hostOps0 (V₀ m ρ c)) (Proc.devRef .tc main_v12) (outArr m ρ c)

theorem V1_self (c : Dev nD) : V1 m ρ c (Proc.devRef .tc main_v12) = outArr m ρ c := by
  unfold V1; exact Function.update_self ..

theorem V1_of_ne (c : Dev nD) (b : Ref sig .tc) (hb : b ≠ main_v12) : V1 m ρ c (Proc.devRef .tc b) = V m ρ c b := by
  unfold V1; exact Function.update_of_ne (StableHlo.devRef_ne_of_ne hb) _ _

theorem exit_0 (c : Dev nD) : (dats m ρ 0 c).arrAt 0 cfg0.N = V1 m ρ c (Proc.devRef .tc (Pipeline.arrRef spec0 0)) := by
  rw [(dats m ρ 0 c).arrAt_in 0 rfl, A_eq]; exact (V1_of_ne m ρ c _ (by decide)).symm
theorem exit_1 (c : Dev nD) : (dats m ρ 0 c).arrAt 1 cfg0.N = V1 m ρ c (Proc.devRef .tc (Pipeline.arrRef spec0 1)) := by
  rw [(dats m ρ 0 c).arrAt_in 1 rfl, A_eq]; exact (V1_of_ne m ρ c _ (by decide)).symm
theorem exit_2 (c : Dev nD) : (dats m ρ 0 c).arrAt 2 cfg0.N = V1 m ρ c (Proc.devRef .tc (Pipeline.arrRef spec0 2)) := by
  rw [(dats m ρ 0 c).arrAt_in 2 rfl, A_eq]; exact (V1_of_ne m ρ c _ (by decide)).symm
theorem exit_3 (c : Dev nD) : (dats m ρ 0 c).arrAt 3 cfg0.N = V1 m ρ c (Proc.devRef .tc (Pipeline.arrRef spec0 3)) := by
  rw [(dats m ρ 0 c).arrAt_in 3 rfl, A_eq]; exact (V1_of_ne m ρ c _ (by decide)).symm
theorem exit_4 (c : Dev nD) : (dats m ρ 0 c).arrAt 4 cfg0.N = V1 m ρ c (Proc.devRef .tc (Pipeline.arrRef spec0 4)) := by
  rw [(dats m ρ 0 c).arrAt_in 4 rfl, A_eq]; exact (V1_of_ne m ρ c _ (by decide)).symm
theorem exit_5 (c : Dev nD) : (dats m ρ 0 c).arrAt 5 cfg0.N = V1 m ρ c (Proc.devRef .tc (Pipeline.arrRef spec0 5)) := by
  rw [(dats m ρ 0 c).arrAt_in 5 rfl, A_eq]; exact (V1_of_ne m ρ c _ (by decide)).symm
theorem exit_6 (c : Dev nD) : (dats m ρ 0 c).arrAt 6 cfg0.N = V1 m ρ c (Proc.devRef .tc (Pipeline.arrRef spec0 6)) := by
  rw [(dats m ρ 0 c).arrAt_in 6 rfl, A_eq]; exact (V1_of_ne m ρ c _ (by decide)).symm
theorem exit_7 (c : Dev nD) : (dats m ρ 0 c).arrAt 7 cfg0.N = V1 m ρ c (Proc.devRef .tc (Pipeline.arrRef spec0 7)) := by
  rw [(dats m ρ 0 c).arrAt_in 7 rfl, A_eq]; exact (V1_of_ne m ρ c _ (by decide)).symm
theorem exit_8 (c : Dev nD) : (dats m ρ 0 c).arrAt 8 cfg0.N = V1 m ρ c (Proc.devRef .tc (Pipeline.arrRef spec0 8)) := by
  rw [(dats m ρ 0 c).arrAt_in 8 rfl, A_eq]; exact (V1_of_ne m ρ c _ (by decide)).symm
theorem exit_9 (c : Dev nD) : (dats m ρ 0 c).arrAt 9 cfg0.N = V1 m ρ c (Proc.devRef .tc (Pipeline.arrRef spec0 9)) := by
  rw [(dats m ρ 0 c).arrAt_in 9 rfl, A_eq]; exact (V1_of_ne m ρ c _ (by decide)).symm
theorem exit_10 (c : Dev nD) : (dats m ρ 0 c).arrAt 10 cfg0.N = V1 m ρ c (Proc.devRef .tc (Pipeline.arrRef spec0 10)) := by
  rw [(dats m ρ 0 c).arrAt_in 10 rfl, A_eq]; exact (V1_of_ne m ρ c _ (by decide)).symm
theorem exit_11 (c : Dev nD) : (dats m ρ 0 c).arrAt 11 cfg0.N = V1 m ρ c (Proc.devRef .tc (Pipeline.arrRef spec0 11)) := by
  rw [(dats m ρ 0 c).arrAt_in 11 rfl, A_eq]; exact (V1_of_ne m ρ c _ (by decide)).symm

/-- Every window's array ends at that valuation's contents: an input's as found, the output's as left. -/
theorem exit_eq (c : Dev nD) (w : Fin cfg0.W) :
    (dats m ρ 0 c).arrAt w cfg0.N = V1 m ρ c (Proc.devRef .tc (Pipeline.arrRef spec0 w)) := by
  match w with
  | ⟨0, _⟩ => exact exit_0 m ρ c
  | ⟨1, _⟩ => exact exit_1 m ρ c
  | ⟨2, _⟩ => exact exit_2 m ρ c
  | ⟨3, _⟩ => exact exit_3 m ρ c
  | ⟨4, _⟩ => exact exit_4 m ρ c
  | ⟨5, _⟩ => exact exit_5 m ρ c
  | ⟨6, _⟩ => exact exit_6 m ρ c
  | ⟨7, _⟩ => exact exit_7 m ρ c
  | ⟨8, _⟩ => exact exit_8 m ρ c
  | ⟨9, _⟩ => exact exit_9 m ρ c
  | ⟨10, _⟩ => exact exit_10 m ρ c
  | ⟨11, _⟩ => exact exit_11 m ρ c
  | ⟨12, _⟩ => exact (V1_self m ρ c).symm

/-- The buffers that bypass the region are not its output array. -/
theorem rest_eq (c : Dev nD) :
    (Pipeline.unscopedRest spec0 c (V m ρ c) : sProp 𝕄) = Pipeline.unscopedRest spec0 c (fun b => V1 m ρ c (Proc.devRef .tc b)) := by
  unfold Pipeline.unscopedRest
  refine bigSep_congr fun b hb => ?_
  have hne : b ≠ main_v12 := fun e => by
    subst e
    exact (Finset.mem_sdiff.mp hb).2 (Finset.mem_image.mpr ⟨12, Finset.mem_univ _, rfl⟩)
  beta_reduce
  rw [V1_of_ne m ρ c b hne]

/-! ## The segments -/

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-- The host operations after it. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V1 m ρ) R

set_option backward.isDefEq.respectTransparency.types false in
/-- The region: entered from the buffers the first host operations left — the twelve arrays to the windows, the
    embeddings array in halves, every other buffer bypassing —, left with the arrays gathered again. -/
def reg0 : Pipeline.RegionSeg (pcfgs (F := F)) adm (dats m ρ) () defs₀ 𝒱₀ L lv 0 where
  win := winFacts₀0
  block_pos := block_pos0
  stage_whole := stage_whole0
  K := PEmpty
  osem := fun k : PEmpty => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V1 m ρ c) ∗ R c)
  X c := iprop(emp)
  Y c := iprop(emp)
  Z c := Pipeline.unscopedRest spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Hab, Hrest⟩, HO⟩, -, -⟩
    ihave Ha := (arrays_iff m ρ c (V m ρ c) ((dats m ρ 0 c).arrAt · 0) (fun _ => rfl)).1 $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m ρ 0 c).Φ 0 = Pipeline.scopedRest spec0 c from rfl]
    iintro ⟨-, -, Hr⟩
    iexact Hr
  hout c := by
    rw [Pipeline.ownSems0_none, show (dats m ρ 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V1 m ρ c) = unscopedBufs c (fun b => V1 m ρ c (Proc.devRef .tc b)) from (Pipeline.unscopedBufs_held c _).symm,
      Pipeline.unscopedBufs_split₀ cfgs 0 winFacts₀0.arr_unscoped c (fun b => V1 m ρ c (Proc.devRef .tc b)), ← rest_eq]
    iintro ⟨Ha, HO, -, HZ⟩
    ihave Hb := (arrays_iff m ρ c (fun b => V1 m ρ c (Proc.devRef .tc b)) ((dats m ρ 0 c).arrAt · cfg0.N) (exit_eq m ρ c)).2 $$ Ha
    imodintro
    isplitr [HO]
    · isplitl [Hb]; · iexact Hb
      iexact HZ
    · unfold Pipeline.Dat.owesAt Pipeline.owesWithin
      icases HO with ⟨%W, -, HO⟩; iexists W; iexact HO

/-- The program as the list of the three. -/
abbrev segs : List (Pipeline.Seg (pcfgs (F := F)) adm (dats m ρ) () defs₀ 𝒱₀ L lv) := [.host (seg0 m ρ), .region (reg0 m ρ), .host (seg1 m ρ)]

/-- What every final state holds: each unscoped buffer at the last valuation. -/
def QC : PUnit × MemSt nD τ sig (Elt F) → Prop := fun r =>
  ∀ c : Dev nD, ∀ b ∈ Pipeline.ucRefs τ sig, r.2.mem ((c : Thread nD τ).1, b) = StableHlo.after hostOps1 (V1 m ρ c) b

set_option backward.isDefEq.respectTransparency.types false in
/-- From any memory with zero counters every weakly fair execution of the program terminates, nothing faulting, and
    every final state holds each unscoped buffer at the last valuation. -/
theorem run_main : θ_run defs (onTc (τ := τ) (main (F := F))) (s₀ m ρ) (QC m ρ) :=
  Pipeline.θ_run_regions_kit (pcfgs (F := F)) adm (dats m ρ) () cellOf_inj emb₁ defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (V1 m ρ c)))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = StableHlo.after hostOps1 (V1 m ρ c) b)
    (hfin := fun c s' => by
      unfold StableHlo.held
      iintro ⟨Hh, HSI⟩
      ihave Hr := (pointsTo_read_all (Pipeline.ucRefs τ sig) (fun b => ((c : Thread nD τ).1, b)) (StableHlo.after hostOps1 (V1 m ρ c)) s') $$ [Hh HSI]
      · isplitl [Hh] <;> iassumption
      icases Hr with ⟨%h, HSI⟩
      imodintro
      isplitr; · ipureintro; exact h
      iexact HSI)
    (hQ := fun _ h => h)

end Cert.KernelIdeal.Run

end
-- ==== Proof.KiFrame.lean ====
/-
  The argument arrays end as they were launched: no host operation writes one, and the region writes only its
  output array.
-/
import proofs.«170733_j62732292325617_2_alg».proof.Proof.KiLaunch

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.StableHlo
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- An unscoped reference of the TensorCore is among the buffers the run accounts for. -/
theorem mem_uc (b : Ref sig .tc) (hb : (Proc.devRef .tc b : DevRef τ sig).isScoped = false) :
    Proc.devRef .tc b ∈ Pipeline.ucRefs τ sig :=
  Finset.mem_filter.mpr ⟨Finset.mem_map.mpr ⟨b, Finset.mem_univ _, rfl⟩, fun h => Bool.false_ne_true (hb.symm.trans h)⟩

theorem kept_arg0 (c : Dev nD) :
    StableHlo.after hostOps1 (V1 m ρ c) (Proc.devRef .tc main_arg0) = m ((c : Thread nD τ).loc main_arg0) := by
  have h1 : StableHlo.after hostOps1 (V1 m ρ c) (Proc.devRef .tc main_arg0) = V1 m ρ c (Proc.devRef .tc main_arg0) := by
    dsimp only [hostOps1]; after_results
  rw [h1, V1_of_ne m ρ c main_arg0 (by decide)]
  show StableHlo.after hostOps0 (V₀ m ρ c) (Proc.devRef .tc main_arg0) = _
  dsimp only [hostOps0]; after_results
theorem kept_arg1 (c : Dev nD) :
    StableHlo.after hostOps1 (V1 m ρ c) (Proc.devRef .tc main_arg1) = m ((c : Thread nD τ).loc main_arg1) := by
  have h1 : StableHlo.after hostOps1 (V1 m ρ c) (Proc.devRef .tc main_arg1) = V1 m ρ c (Proc.devRef .tc main_arg1) := by
    dsimp only [hostOps1]; after_results
  rw [h1, V1_of_ne m ρ c main_arg1 (by decide)]
  show StableHlo.after hostOps0 (V₀ m ρ c) (Proc.devRef .tc main_arg1) = _
  dsimp only [hostOps0]; after_results
theorem kept_arg2 (c : Dev nD) :
    StableHlo.after hostOps1 (V1 m ρ c) (Proc.devRef .tc main_arg2) = m ((c : Thread nD τ).loc main_arg2) := by
  have h1 : StableHlo.after hostOps1 (V1 m ρ c) (Proc.devRef .tc main_arg2) = V1 m ρ c (Proc.devRef .tc main_arg2) := by
    dsimp only [hostOps1]; after_results
  rw [h1, V1_of_ne m ρ c main_arg2 (by decide)]
  show StableHlo.after hostOps0 (V₀ m ρ c) (Proc.devRef .tc main_arg2) = _
  dsimp only [hostOps0]; after_results
theorem kept_arg3 (c : Dev nD) :
    StableHlo.after hostOps1 (V1 m ρ c) (Proc.devRef .tc main_arg3) = m ((c : Thread nD τ).loc main_arg3) := by
  have h1 : StableHlo.after hostOps1 (V1 m ρ c) (Proc.devRef .tc main_arg3) = V1 m ρ c (Proc.devRef .tc main_arg3) := by
    dsimp only [hostOps1]; after_results
  rw [h1, V1_of_ne m ρ c main_arg3 (by decide)]
  show StableHlo.after hostOps0 (V₀ m ρ c) (Proc.devRef .tc main_arg3) = _
  dsimp only [hostOps0]; after_results
theorem kept_arg4 (c : Dev nD) :
    StableHlo.after hostOps1 (V1 m ρ c) (Proc.devRef .tc main_arg4) = m ((c : Thread nD τ).loc main_arg4) := by
  have h1 : StableHlo.after hostOps1 (V1 m ρ c) (Proc.devRef .tc main_arg4) = V1 m ρ c (Proc.devRef .tc main_arg4) := by
    dsimp only [hostOps1]; after_results
  rw [h1, V1_of_ne m ρ c main_arg4 (by decide)]
  show StableHlo.after hostOps0 (V₀ m ρ c) (Proc.devRef .tc main_arg4) = _
  dsimp only [hostOps0]; after_results
theorem kept_arg5 (c : Dev nD) :
    StableHlo.after hostOps1 (V1 m ρ c) (Proc.devRef .tc main_arg5) = m ((c : Thread nD τ).loc main_arg5) := by
  have h1 : StableHlo.after hostOps1 (V1 m ρ c) (Proc.devRef .tc main_arg5) = V1 m ρ c (Proc.devRef .tc main_arg5) := by
    dsimp only [hostOps1]; after_results
  rw [h1, V1_of_ne m ρ c main_arg5 (by decide)]
  show StableHlo.after hostOps0 (V₀ m ρ c) (Proc.devRef .tc main_arg5) = _
  dsimp only [hostOps0]; after_results
theorem kept_arg6 (c : Dev nD) :
    StableHlo.after hostOps1 (V1 m ρ c) (Proc.devRef .tc main_arg6) = m ((c : Thread nD τ).loc main_arg6) := by
  have h1 : StableHlo.after hostOps1 (V1 m ρ c) (Proc.devRef .tc main_arg6) = V1 m ρ c (Proc.devRef .tc main_arg6) := by
    dsimp only [hostOps1]; after_results
  rw [h1, V1_of_ne m ρ c main_arg6 (by decide)]
  show StableHlo.after hostOps0 (V₀ m ρ c) (Proc.devRef .tc main_arg6) = _
  dsimp only [hostOps0]; after_results
theorem kept_arg7 (c : Dev nD) :
    StableHlo.after hostOps1 (V1 m ρ c) (Proc.devRef .tc main_arg7) = m ((c : Thread nD τ).loc main_arg7) := by
  have h1 : StableHlo.after hostOps1 (V1 m ρ c) (Proc.devRef .tc main_arg7) = V1 m ρ c (Proc.devRef .tc main_arg7) := by
    dsimp only [hostOps1]; after_results
  rw [h1, V1_of_ne m ρ c main_arg7 (by decide)]
  show StableHlo.after hostOps0 (V₀ m ρ c) (Proc.devRef .tc main_arg7) = _
  dsimp only [hostOps0]; after_results
theorem kept_arg8 (c : Dev nD) :
    StableHlo.after hostOps1 (V1 m ρ c) (Proc.devRef .tc main_arg8) = m ((c : Thread nD τ).loc main_arg8) := by
  have h1 : StableHlo.after hostOps1 (V1 m ρ c) (Proc.devRef .tc main_arg8) = V1 m ρ c (Proc.devRef .tc main_arg8) := by
    dsimp only [hostOps1]; after_results
  rw [h1, V1_of_ne m ρ c main_arg8 (by decide)]
  show StableHlo.after hostOps0 (V₀ m ρ c) (Proc.devRef .tc main_arg8) = _
  dsimp only [hostOps0]; after_results

/-- The frame: the program runs to the end, faulting nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 rfl)).trans (kept_arg0 m ρ c),
      (h c _ (mem_uc main_arg1 rfl)).trans (kept_arg1 m ρ c),
      (h c _ (mem_uc main_arg2 rfl)).trans (kept_arg2 m ρ c),
      (h c _ (mem_uc main_arg3 rfl)).trans (kept_arg3 m ρ c),
      (h c _ (mem_uc main_arg4 rfl)).trans (kept_arg4 m ρ c),
      (h c _ (mem_uc main_arg5 rfl)).trans (kept_arg5 m ρ c),
      (h c _ (mem_uc main_arg6 rfl)).trans (kept_arg6 m ρ c),
      (h c _ (mem_uc main_arg7 rfl)).trans (kept_arg7 m ρ c),
      (h c _ (mem_uc main_arg8 rfl)).trans (kept_arg8 m ρ c)⟩) (run_main m ρ)

end Cert.KernelIdeal.Run

end
-- ==== Proof.KiStages.lean ====
/-
  The arrays the kernel region reads, as the host operations before it leave them, read at one index.

  Before the region the program cuts the first layer's 385 × 256 matrix into three 128-row bands and its last row,
  narrows the bands and the second layer's matrix to the sixteen-bit format (the identity on extended reals), and
  reshapes the three bias vectors and the third layer's 256 × 1 column to one-row matrices. The two argument arrays the
  region reads directly are untouched. So every entry of every array the region finds is one entry of an argument of
  the whole program: band `k`'s entry `(f, h)` is the matrix's `(128·k + f, h)`, the last row's `(0, h)` is the
  matrix's `(384, h)`, a reshaped vector's `(0, h)` is the vector's `h`, and the reshaped column's `(0, g)` is the
  column's `(g, 0)`.

  Each lemma first names the stage as a term over the launch contents (the fold of the host operations, evaluated at
  that one buffer), then reads the term at the index.
-/
import proofs.«170733_j62732292325617_2_alg».proof.Proof.KiRun
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.Run

open Cert.KernelIdeal Cert.KernelIdeal.Gen Idealize.ShloMosaic Idealize.ShloMosaic.TcCoe Idealize.ShloMosaic.StableHlo
  Idealize.ShloMosaic.ValueIdx Idealize.SL.Sem

variable (m : (ℓ : Loc nD τ sig) → Buf (Elt Ideal) ℓ) (ρ : Dev nD → PrngReg)

/-! ## The two arrays no host operation writes -/

theorem V_arg0 (c : Dev nD) : V m ρ c main_arg0 = m ((c : Thread nD τ).loc main_arg0) := by
  dsimp only [V, hostOps0]
  after_results

theorem V_arg2 (c : Dev nD) : V m ρ c main_arg2 = m ((c : Thread nD τ).loc main_arg2) := by
  dsimp only [V, hostOps0]
  after_results

/-! ## Each stage as a term over the launch contents -/

/-- The first band: rows 0 to 127 of the matrix, narrowed. -/
theorem stage_v1 (c : Dev nD) : @Eq (FVec Ideal S128x256 .bf16) (V m ρ c main_v1)
    (truncf .bf16 (extractStridedSlice S128x256 ![0, 0] (m ((c : Thread nD τ).loc main_arg3)) slices_S385x256_S128x256_0_0)
      bitsLt_bf16_f32) := by
  dsimp only [V, hostOps0]
  after_results

/-- The second band: rows 128 to 255, narrowed. -/
theorem stage_v3 (c : Dev nD) : @Eq (FVec Ideal S128x256 .bf16) (V m ρ c main_v3)
    (truncf .bf16 (extractStridedSlice S128x256 ![128, 0] (m ((c : Thread nD τ).loc main_arg3)) slices_S385x256_S128x256_128_0)
      bitsLt_bf16_f32) := by
  dsimp only [V, hostOps0]
  after_results

/-- The third band: rows 256 to 383, narrowed. -/
theorem stage_v5 (c : Dev nD) : @Eq (FVec Ideal S128x256 .bf16) (V m ρ c main_v5)
    (truncf .bf16 (extractStridedSlice S128x256 ![256, 0] (m ((c : Thread nD τ).loc main_arg3)) slices_S385x256_S128x256_256_0)
      bitsLt_bf16_f32) := by
  dsimp only [V, hostOps0]
  after_results

/-- The last row, row 384. -/
theorem stage_v6 (c : Dev nD) : @Eq (FVec Ideal S1x256 .f32) (V m ρ c main_v6)
    (extractStridedSlice S1x256 ![384, 0] (m ((c : Thread nD τ).loc main_arg3)) slices_S385x256_S1x256_384_0) := by
  dsimp only [V, hostOps0]
  after_results

/-- The first bias as a one-row matrix. -/
theorem stage_v7 (c : Dev nD) : @Eq (FVec Ideal S1x256 .f32) (V m ρ c main_v7)
    (shapeCast S1x256 (m ((c : Thread nD τ).loc main_arg4)) shapeCasts_S256_S1x256) := by
  dsimp only [V, hostOps0]
  after_results
  rfl

/-- The second bias as a one-row matrix. -/
theorem stage_v8 (c : Dev nD) : @Eq (FVec Ideal S1x256 .f32) (V m ρ c main_v8)
    (shapeCast S1x256 (m ((c : Thread nD τ).loc main_arg6)) shapeCasts_S256_S1x256) := by
  dsimp only [V, hostOps0]
  after_results
  rfl

/-- The second layer's matrix, narrowed. -/
theorem stage_v9 (c : Dev nD) : @Eq (FVec Ideal S256x256 .bf16) (V m ρ c main_v9)
    (truncf .bf16 (m ((c : Thread nD τ).loc main_arg5)) bitsLt_bf16_f32) := by
  dsimp only [V, hostOps0]
  after_results

/-- The third layer's column as a one-row matrix. -/
theorem stage_v10 (c : Dev nD) : @Eq (FVec Ideal S1x256 .f32) (V m ρ c main_v10)
    (shapeCast S1x256 (m ((c : Thread nD τ).loc main_arg7)) shapeCasts_S256x1_S1x256) := by
  dsimp only [V, hostOps0]
  after_results
  rfl

/-- The third bias as a one-by-one matrix. -/
theorem stage_v11 (c : Dev nD) : @Eq (FVec Ideal S1x1 .f32) (V m ρ c main_v11)
    (shapeCast S1x1 (m ((c : Thread nD τ).loc main_arg8)) shapeCasts_S1_S1x1) := by
  dsimp only [V, hostOps0]
  after_results
  rfl

/-! ## Each stage at an index -/

theorem V_v1_at (c : Dev nD) (f : Fin 128) (h : Fin 256) :
    V m ρ c main_v1 (ix2 f h) = m ((c : Thread nD τ).loc main_arg3) (ix2 (⟨f.val, by omega⟩ : Fin 385) h) := by
  refine (congrFun (stage_v1 m ρ c) (ix2 f h)).trans ?_
  exact slice2_axis0_apply 0 _ slices_S385x256_S128x256_0_0 f h ⟨f.val, by omega⟩ (Nat.zero_add _).symm

theorem V_v3_at (c : Dev nD) (f : Fin 128) (h : Fin 256) :
    V m ρ c main_v3 (ix2 f h) = m ((c : Thread nD τ).loc main_arg3) (ix2 (⟨128 + f.val, by omega⟩ : Fin 385) h) := by
  refine (congrFun (stage_v3 m ρ c) (ix2 f h)).trans ?_
  exact slice2_axis0_apply 128 _ slices_S385x256_S128x256_128_0 f h ⟨128 + f.val, by omega⟩ rfl

theorem V_v5_at (c : Dev nD) (f : Fin 128) (h : Fin 256) :
    V m ρ c main_v5 (ix2 f h) = m ((c : Thread nD τ).loc main_arg3) (ix2 (⟨256 + f.val, by omega⟩ : Fin 385) h) := by
  refine (congrFun (stage_v5 m ρ c) (ix2 f h)).trans ?_
  exact slice2_axis0_apply 256 _ slices_S385x256_S128x256_256_0 f h ⟨256 + f.val, by omega⟩ rfl

theorem V_v6_at (c : Dev nD) (h : Fin 256) :
    V m ρ c main_v6 (ix2 0 h) = m ((c : Thread nD τ).loc main_arg3) (ix2 (⟨384, by omega⟩ : Fin 385) h) := by
  refine (congrFun (stage_v6 m ρ c) (ix2 (0 : Fin 1) h)).trans ?_
  exact slice2_axis0_apply 384 _ slices_S385x256_S1x256_384_0 (0 : Fin 1) h ⟨384, by omega⟩ rfl

theorem V_v7_at (c : Dev nD) (h : Fin 256) :
    V m ρ c main_v7 (ix2 0 h) = m ((c : Thread nD τ).loc main_arg4) (ix1 h) := by
  refine (congrFun (stage_v7 m ρ c) (ix2 (0 : Fin 1) h)).trans ?_
  exact shapeCast_a_1a_apply _ shapeCasts_S256_S1x256 0 h

theorem V_v9_at (c : Dev nD) (h g : Fin 256) :
    V m ρ c main_v9 (ix2 h g) = m ((c : Thread nD τ).loc main_arg5) (ix2 h g) :=
  congrFun (stage_v9 m ρ c) (ix2 h g)

theorem V_v8_at (c : Dev nD) (g : Fin 256) :
    V m ρ c main_v8 (ix2 0 g) = m ((c : Thread nD τ).loc main_arg6) (ix1 g) := by
  refine (congrFun (stage_v8 m ρ c) (ix2 (0 : Fin 1) g)).trans ?_
  exact shapeCast_a_1a_apply _ shapeCasts_S256_S1x256 0 g

theorem V_v10_at (c : Dev nD) (g : Fin 256) :
    V m ρ c main_v10 (ix2 0 g) = m ((c : Thread nD τ).loc main_arg7) (ix2 g 0) := by
  refine (congrFun (stage_v10 m ρ c) (ix2 (0 : Fin 1) g)).trans ?_
  refine shapeCast_apply _ shapeCasts_S256x1_S1x256 (ix2 (0 : Fin 1) g) (ix2 g (0 : Fin 1)) ?_
  rw [Shape.rowMajor_val_two, Shape.rowMajor_val_two]
  show g.val * 1 + 0 = 0 * 256 + g.val
  omega

theorem V_v11_at (c : Dev nD) :
    V m ρ c main_v11 (ix2 0 0) = m ((c : Thread nD τ).loc main_arg8) (ix1 0) := by
  refine (congrFun (stage_v11 m ρ c) (ix2 (0 : Fin 1) (0 : Fin 1))).trans ?_
  exact shapeCast_a_1a_apply _ shapeCasts_S1_S1x1 0 0

end Cert.KernelIdeal.Run

end
-- ==== Proof.Spec.lean ====
/-
  The pair MLP on ONE ordered pair of nodes, as a function on the extended reals.

  Given the two nodes' embedding rows `xi`, `xj` (128 entries each), their distance `e`, and the weights of
  three layers, the network computes

    h1[h]  = max (xi·Wi[:,h] + b1[h] + xj·Wj[:,h] + |xi − xj|·Wa[:,h] + e·we[h]) 0
    h2[g]  = max (Σ_h h1[h]·W2[h,g] + b2[g]) 0
    out    = Σ_g h2[g]·w3[g] + b3

  where the first layer's 385 × 256 matrix is cut into three 128-row bands `Wi`, `Wj`, `Wa` and one last row `we`:
  the concatenated feature (xi, xj, |xi − xj|, e) times that matrix is the sum of the four partial products, because
  addition on the extended reals is commutative and associative (no finiteness is needed). The absolute value of an
  extended real `a` is `max a (−a)`.
-/
import Idealize.ShloMosaic.PureOps.Ideal
import Mathlib.Algebra.BigOperators.Fin

noncomputable section

namespace Cert.PairMlp

/-- The first hidden layer at unit `h`, the four partial products added in the order
    ((row part + bias) + column part) + absolute-difference part) + distance part. -/
def hid1 (xi xj : Fin 128 → EReal) (e : EReal) (wi wj wa : Fin 128 → Fin 256 → EReal) (we b1 : Fin 256 → EReal)
    (h : Fin 256) : EReal :=
  max (((((∑ f : Fin 128, xi f * wi f h) + b1 h) + ∑ f : Fin 128, xj f * wj f h)
      + ∑ f : Fin 128, max (xi f - xj f) (-(xi f - xj f)) * wa f h) + e * we h) 0

/-- The second hidden layer at unit `g`. -/
def hid2 (xi xj : Fin 128 → EReal) (e : EReal) (wi wj wa : Fin 128 → Fin 256 → EReal) (we b1 : Fin 256 → EReal)
    (w2 : Fin 256 → Fin 256 → EReal) (b2 : Fin 256 → EReal) (g : Fin 256) : EReal :=
  max ((∑ h : Fin 256, hid1 xi xj e wi wj wa we b1 h * w2 h g) + b2 g) 0

/-- The network's output on the pair. -/
def out (xi xj : Fin 128 → EReal) (e : EReal) (wi wj wa : Fin 128 → Fin 256 → EReal) (we b1 : Fin 256 → EReal)
    (w2 : Fin 256 → Fin 256 → EReal) (b2 : Fin 256 → EReal) (w3 : Fin 256 → EReal) (b3 : EReal) : EReal :=
  (∑ g : Fin 256, hid2 xi xj e wi wj wa we b1 w2 b2 g * w3 g) + b3

end Cert.PairMlp

end
-- ==== Proof.KernelPayload.lean ====
/-
  The kernel body's arithmetic read at one index, over the extended reals.

  The body stores one value: a [1, 32, 128] tile whose entry (0, p, q) is computed from row p of the first block of
  node embeddings, row q of the second block, the distance tile's entry (0, p, q), and the weights of three layers.
  Over the extended reals a narrowing of the number format is the identity, the absolute value of `a` is `max a (−a)`,
  a matrix product accumulated into the zero matrix is the plain sum over the contracted coordinate, a sum along the
  lanes is the sum over the lane coordinate, and a maximum is `max`. Flattening a [32, 128, K] array to [4096, K] puts
  the pair (p, q) at row p·128 + q; every broadcast reads `0` on the operand's unit axes.

  Read through these facts, the stored entry (0, p, q) is the pair network `Cert.PairMlp.out` on that ordered pair of
  nodes (`payload_apply`): the first layer's four partial products (row part plus bias, column part, absolute
  difference part, distance part) are added in the order the specification fixes, clipped at zero, multiplied by the
  second matrix, shifted by the second bias, clipped at zero again, weighted by the third layer's row and summed, and
  shifted by the third bias.

  The file has four parts: a plain two-matrix product at an index; the shape casts and broadcasts the body uses, each
  read at an index written by coordinates; the seven small tiles the body builds first, at an index; and the stored value.
-/
import proofs.«170733_j62732292325617_2_alg».proof.Proof.Gen.KernelIdeal.Skeleton
import proofs.«170733_j62732292325617_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Cert.KernelIdeal Cert.KernelIdeal.Gen Idealize.ShloMosaic Idealize.ShloMosaic.ValueIdx

open scoped BigOperators

/-- A plain [M,K] x [K,N] product accumulated into the zero splat, read at (r, c): the sum over the contracted
    coordinate k of the left operand at (r, k) times the right operand at (k, c). -/
theorem matmul_plain_apply {M K N : Nat} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-! ## Layout operations at literal ranks, read at an index written by coordinates -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp)

/-- The row of a flattened `[4096, ·]` array that holds the pair `(p, q)` of a `[32, 128, ·]` one. -/
def row (p : Fin 32) (q : Fin 128) : Fin 4096 := ⟨p.val * 128 + q.val, by omega⟩

/-- A `[32, 128, c]` array flattened to `[4096, c]` reads, at row `p * 128 + q`, the operand at `(p, q, ·)`. -/
theorem shapeCast_flat_apply {c : ℕ} (x : (⟨3, ![32, 128, c]⟩ : Shape).Idx → α)
    (h : (⟨3, ![32, 128, c]⟩ : Shape).ShapeCasts ⟨2, ![4096, c]⟩) (p : Fin 32) (q : Fin 128) (k : Fin c) :
    shapeCast ⟨2, ![4096, c]⟩ x h (ix2 (row p q) k) = x (ix3 p q k) :=
  shapeCast_apply x h _ _ (by
    rw [Shape.rowMajor_val_three, Shape.rowMajor_val_two]
    rfl)

/-- A `[4096, c]` array cast back to `[32, 128, c]` reads, at `(p, q, ·)`, the operand at row `p * 128 + q`. -/
theorem shapeCast_unflat_apply {c : ℕ} (x : (⟨2, ![4096, c]⟩ : Shape).Idx → α)
    (h : (⟨2, ![4096, c]⟩ : Shape).ShapeCasts ⟨3, ![32, 128, c]⟩) (p : Fin 32) (q : Fin 128) (k : Fin c) :
    shapeCast ⟨3, ![32, 128, c]⟩ x h (ix3 p q k) = x (ix2 (row p q) k) :=
  shapeCast_apply x h _ _ (by
    rw [Shape.rowMajor_val_three, Shape.rowMajor_val_two]
    rfl)

/-- An `[a, 1, c]` array broadcast to `[a, b, c]` reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## Elementwise operations at the extended reals -/

/-- The absolute value of a difference of two vectors, read at an index where the two operands are known. -/
theorem absf_subf_apply {s : Shape} {φ : FTy} (A B : FVec Ideal s φ) (i : s.Idx) (a b : EReal) (ha : A i = a) (hb : B i = b) :
    absf (subf A B) i = max (a - b) (-(a - b)) := by
  subst ha hb
  rfl

/-- The f32 zero scalar broadcast to any shape reads the extended real `0` everywhere. -/
theorem zero_splat_apply {s : Shape} (i : s.Idx) :
    broadcast s (Scalar.ofBits (F := Ideal) .f32 0x00000000#32) i = (0 : EReal) :=
  Ideal.ofBits_zero_f32

/-! ## The small payloads at an index -/

/-- The row block of embeddings, squeezed and narrowed: entry `(p, f)` is the block's `(0, p, f)`. -/
theorem pay2_apply (v0 : Vec Ideal S1x32x128 .f32) (p : Fin 32) (f : Fin 128) :
    k0_pay2 (F := Ideal) v0 (ix2 p f) = v0 (ix3 (0 : Fin 1) p f) := by
  unfold k0_pay2
  exact shapeCast_1ab_ab_apply v0 _ p f

/-- The column block of embeddings, squeezed and narrowed: entry `(q, f)` is the block's `(0, q, f)`. -/
theorem pay3_apply (v2 : Vec Ideal S1x128x128 .f32) (q : Fin 128) (f : Fin 128) :
    k0_pay3 (F := Ideal) v2 (ix2 q f) = v2 (ix3 (0 : Fin 1) q f) := by
  unfold k0_pay3
  exact shapeCast_1ab_ab_apply v2 _ q f

/-- The distance tile with a trailing unit axis: entry `(p, q, 0)` is the tile's `(0, p, q)`. -/
theorem pay7_apply (v4 : Vec Ideal S1x32x128 .f32) (p : Fin 32) (q : Fin 128) :
    k0_pay7 (F := Ideal) v4 (ix3 p q (0 : Fin 1)) = v4 (ix3 (0 : Fin 1) p q) := by
  unfold k0_pay7
  exact (shapeCast_ab_ab1_apply _ _ p q 0).trans (shapeCast_1ab_ab_apply v4 _ p q)

/-- The first layer's last row as a vector: entry `h` is the row's `(0, h)`. -/
theorem pay8_apply (v14 : Vec Ideal S1x256 .f32) (h : Fin 256) :
    k0_pay8 (F := Ideal) v14 (ix1 h) = v14 (ix2 (0 : Fin 1) h) := by
  unfold k0_pay8
  refine (shapeCast_1a_a_apply _ _ h).trans ?_
  rw [shapeCast_self]

/-- The row part of the first layer plus its bias, at `(p, h)`. -/
theorem pay4_apply (v0 : Vec Ideal S1x32x128 .f32) (v8 : Vec Ideal S128x256 .bf16) (v16 : Vec Ideal S1x256 .f32)
    (p : Fin 32) (h : Fin 256) :
    k0_pay4 (F := Ideal) v0 v8 v16 (ix2 p h)
      = (∑ f : Fin 128, v0 (ix3 (0 : Fin 1) p f) * v8 (ix2 f h)) + v16 (ix2 (0 : Fin 1) h) := by
  unfold k0_pay4
  refine (addf_apply _ _ _).trans ?_
  refine congrArg₂ (· + ·) ?_ ?_
  · refine (matmul_plain_apply none (k0_pay2 (F := Ideal) v0) _ p h).trans ?_
    refine Finset.sum_congr rfl fun f _ => ?_
    rw [pay2_apply, shapeCast_self]
  · refine (broadcastTo_1b_ab_apply _ _ p h).trans ?_
    refine (shapeCast_a_1a_apply _ _ 0 h).trans ?_
    refine (shapeCast_1a_a_apply _ _ h).trans ?_
    rw [shapeCast_self]

/-- The column part of the first layer, at `(q, h)`. -/
theorem pay5_apply (v2 : Vec Ideal S1x128x128 .f32) (v10 : Vec Ideal S128x256 .bf16) (q : Fin 128) (h : Fin 256) :
    k0_pay5 (F := Ideal) v2 v10 (ix2 q h) = ∑ f : Fin 128, v2 (ix3 (0 : Fin 1) q f) * v10 (ix2 f h) := by
  unfold k0_pay5
  refine (matmul_plain_apply none (k0_pay3 (F := Ideal) v2) _ q h).trans ?_
  refine Finset.sum_congr rfl fun f _ => ?_
  rw [pay3_apply, shapeCast_self]

/-- The absolute-difference part of the first layer, at `(p, q, h)`. -/
theorem pay6_apply (v0 : Vec Ideal S1x32x128 .f32) (v2 : Vec Ideal S1x128x128 .f32) (v12 : Vec Ideal S128x256 .bf16)
    (p : Fin 32) (q : Fin 128) (h : Fin 256) :
    k0_pay6 (F := Ideal) v0 v2 v12 (ix3 p q h)
      = ∑ f : Fin 128, max (v0 (ix3 (0 : Fin 1) p f) - v2 (ix3 (0 : Fin 1) q f))
          (-(v0 (ix3 (0 : Fin 1) p f) - v2 (ix3 (0 : Fin 1) q f))) * v12 (ix2 f h) := by
  unfold k0_pay6
  refine (shapeCast_unflat_apply _ _ p q h).trans ?_
  refine (matmul_plain_apply none _ _ (row p q) h).trans ?_
  refine Finset.sum_congr rfl fun f _ => ?_
  refine congrArg₂ (· * ·) ?_ (congrFun (shapeCast_self v12 _) _)
  refine (shapeCast_flat_apply _ _ p q f).trans ?_
  refine absf_subf_apply _ _ _ _ _ ?_ ?_
  · exact (broadcastTo_a1c_abc_apply _ _ p q f).trans
      ((shapeCast_ab_a1b_apply _ _ p 0 f).trans (pay2_apply v0 p f))
  · exact (broadcastTo_1bc_abc_apply _ _ p q f).trans
      ((shapeCast_ab_1ab_apply _ _ 0 q f).trans (pay3_apply v2 q f))

/-! ## The stored value at an index -/

/-- The stored value at `(0, p, q)`, over the five tiles the first part hands on: the first layer's four parts added
    and clipped at zero, the second layer's product plus bias clipped at zero, the third layer's weighted lane sum plus
    its bias. -/
theorem pay1_apply (v22 : FVec Ideal S32x256 .f32) (v23 : FVec Ideal S128x256 .f32) (v32 : FVec Ideal S32x128x256 .f32)
    (v33 : FVec Ideal S32x128x1 .f32) (v34 : FVec Ideal S256 .f32) (v50 : Vec Ideal S256x256 .bf16)
    (v52 v62 : Vec Ideal S1x256 .f32) (v64 : Vec Ideal S1x1 .f32) (p : Fin 32) (q : Fin 128) :
    k0_pay1 (F := Ideal) v22 v23 v32 v33 v34 v50 v52 v62 v64 (ix3 (0 : Fin 1) p q)
      = (∑ g : Fin 256,
          max ((∑ h : Fin 256,
                max ((((v22 (ix2 p h) + v23 (ix2 q h)) + v32 (ix3 p q h))
                      + v33 (ix3 p q (0 : Fin 1)) * v34 (ix1 h))) 0 * v50 (ix2 h g))
              + v52 (ix2 (0 : Fin 1) g)) 0 * v62 (ix2 (0 : Fin 1) g))
        + v64 (ix2 (0 : Fin 1) (0 : Fin 1)) := by
  unfold k0_pay1
  refine (shapeCast_ab_1ab_apply _ _ 0 p q).trans ?_
  refine (addf_apply _ _ _).trans ?_
  refine congrArg₂ (· + ·) ?_ ?_
  · -- the lane sum of the third layer
    refine (Ideal.multiReduction_add_single _ _ reduces_S32x128x256_S32x128 _ _ (ix2 p q)).trans ?_
    refine Finset.sum_congr rfl fun (g : Fin 256) _ => ?_
    have hl : reduces_S32x128x256_S32x128.lift (ix2 p q) g = ix3 p q g := funext fun a => Fin.ext (by
      match a with
      | ⟨0, _⟩ => rfl
      | ⟨1, _⟩ => rfl
      | ⟨2, _⟩ => rfl)
    refine (congrArg _ hl).trans ?_
    refine (mulf_apply _ _ _).trans ?_
    refine congrArg₂ (· * ·) ?_ ?_
    · -- the second hidden layer at g
      refine (maximumf_apply _ _ _).trans ?_
      refine congrArg₂ max ?_ (zero_splat_apply _)
      refine (addf_apply _ _ _).trans ?_
      refine congrArg₂ (· + ·) ?_ ?_
      · refine (shapeCast_unflat_apply _ _ p q g).trans ?_
        refine (matmul_plain_apply none _ _ (row p q) g).trans ?_
        refine Finset.sum_congr rfl fun h _ => ?_
        refine congrArg₂ (· * ·) ?_ (congrFun (shapeCast_self v50 _) _)
        refine (shapeCast_flat_apply _ _ p q h).trans ?_
        -- the first hidden layer at h
        refine (truncf_apply (ψ := .bf16) _ bitsLt_bf16_f32 _).trans ?_
        refine (maximumf_apply _ _ _).trans ?_
        refine congrArg₂ max ?_ (zero_splat_apply _)
        refine (addf_apply _ _ _).trans ?_
        refine congrArg₂ (· + ·) ?_ ?_
        · refine (addf_apply _ _ _).trans ?_
          refine congrArg₂ (· + ·) ?_ rfl
          refine (addf_apply _ _ _).trans ?_
          refine congrArg₂ (· + ·) ?_ ?_
          · exact (broadcastTo_a1c_abc_apply _ _ p q h).trans (shapeCast_ab_a1b_apply _ _ p 0 h)
          · exact (broadcastTo_1bc_abc_apply _ _ p q h).trans (shapeCast_ab_1ab_apply _ _ 0 q h)
        · refine (mulf_apply _ _ _).trans ?_
          refine congrArg₂ (· * ·) ?_ ?_
          · exact broadcastTo_ab1_abc_apply _ _ p q h
          · exact (broadcastTo_11c_abc_apply _ _ p q h).trans (shapeCast_a_11a_apply _ _ 0 0 h)
      · refine (broadcastTo_11c_abc_apply _ _ p q g).trans ?_
        refine (shapeCast_a_11a_apply _ _ 0 0 g).trans ?_
        refine (shapeCast_1a_a_apply _ _ g).trans ?_
        exact congrFun (shapeCast_self v52 _) _
    · refine (broadcastTo_11c_abc_apply _ _ p q g).trans ?_
      refine (shapeCast_a_11a_apply _ _ 0 0 g).trans ?_
      refine (shapeCast_1a_a_apply _ _ g).trans ?_
      exact congrFun (shapeCast_self v62 _) _
  · -- the third bias, extracted from its one-element block
    show extractAt ![0, 0] (shapeCast S1x1 v64 shapeCasts_S1x1_S1x1) inpos_S1x1_p0_0 = _
    rw [shapeCast_self]
    exact congrArg v64 (funext fun a => Fin.ext (by
      match a with
      | ⟨0, _⟩ => rfl
      | ⟨1, _⟩ => rfl))

/-- THE KERNEL BODY'S STORED VALUE at `(0, p, q)` is the pair network on nodes `p` (row block) and `q` (column block):
    their embedding rows, their distance, and the three layers' weights read off the loaded blocks. -/
theorem payload_apply (v0 : Vec Ideal S1x32x128 .f32) (v2 : Vec Ideal S1x128x128 .f32) (v4 : Vec Ideal S1x32x128 .f32)
    (v8 v10 v12 : Vec Ideal S128x256 .bf16) (v14 v16 : Vec Ideal S1x256 .f32) (v50 : Vec Ideal S256x256 .bf16)
    (v52 v62 : Vec Ideal S1x256 .f32) (v64 : Vec Ideal S1x1 .f32) (p : Fin 32) (q : Fin 128) :
    k0_pay1 (F := Ideal) (k0_pay4 v0 v8 v16) (k0_pay5 v2 v10) (k0_pay6 v0 v2 v12) (k0_pay7 v4) (k0_pay8 v14) v50 v52 v62 v64
        (ix3 0 p q)
      = Cert.PairMlp.out (fun f => v0 (ix3 0 p f)) (fun f => v2 (ix3 0 q f)) (v4 (ix3 0 p q)) (fun f h => v8 (ix2 f h))
          (fun f h => v10 (ix2 f h)) (fun f h => v12 (ix2 f h)) (fun h => v14 (ix2 0 h)) (fun h => v16 (ix2 0 h))
          (fun h g => v50 (ix2 h g)) (fun g => v52 (ix2 0 g)) (fun g => v62 (ix2 0 g)) (v64 (ix2 0 0)) := by
  refine (pay1_apply _ _ _ _ _ v50 v52 v62 v64 p q).trans ?_
  unfold Cert.PairMlp.out Cert.PairMlp.hid2 Cert.PairMlp.hid1
  refine congrArg₂ (· + ·) (Finset.sum_congr rfl fun g _ => ?_) rfl
  refine congrArg₂ (· * ·) ?_ rfl
  refine congrArg₂ max ?_ rfl
  refine congrArg₂ (· + ·) (Finset.sum_congr rfl fun h _ => ?_) rfl
  refine congrArg₂ (· * ·) ?_ rfl
  refine congrArg₂ max ?_ rfl
  rw [pay4_apply, pay5_apply, pay6_apply, pay7_apply, pay8_apply]

end Cert.KernelIdeal.PayloadValue

end
-- ==== Proof.KiValue.lean ====
/-
  What the program computes, at the exact extended-real reading of its floats.

  At grid point (b, ii, jj) the body is handed rows 32·ii … 32·ii+31 and rows 128·jj … 128·jj+127 of batch b's
  embeddings, the matching 32 × 128 tile of distances, and the whole of every weight array (the first layer's matrix as
  its three 128-row bands and its last row). By the payload's reading at an index, entry (p, q) of the block it writes is
  the pair network on rows 32·ii+p and 128·jj+q and their distance. The 2 · 16 · 4 blocks tile the output array, so the
  array ends, at every ordered pair (b, i, j), at the pair network on rows i and j of batch b. The host operations after
  the region (symmetrize, halve, zero the diagonal) are applied to that array.
-/
import proofs.«170733_j62732292325617_2_alg».proof.Proof.KiFrame
import proofs.«170733_j62732292325617_2_alg».proof.Proof.KiStages
import proofs.«170733_j62732292325617_2_alg».proof.Proof.KernelPayload
import proofs.«170733_j62732292325617_2_alg».proof.Proof.Spec
import Idealize.ShloMosaic.Lib.Pipeline.Value
import Idealize.ShloMosaic.Lib.ValueIdx

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.StableHlo Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The pair network at every ordered pair (b, i, j): on rows i and j of batch b's embeddings and their distance. -/
def pairs (c : Dev nD) : S2x512x512.Idx → EReal := fun idx => Cert.PairMlp.out
    (fun f => m ((c : Thread nD τ).loc main_arg0) (ix3 (idx 0) (idx 1) f))
    (fun f => m ((c : Thread nD τ).loc main_arg0) (ix3 (idx 0) (idx 2) f))
    (m ((c : Thread nD τ).loc main_arg2) (ix3 (idx 0) (idx 1) (idx 2)))
    (fun f h => m ((c : Thread nD τ).loc main_arg3) (ix2 ⟨f.val, by omega⟩ h))
    (fun f h => m ((c : Thread nD τ).loc main_arg3) (ix2 ⟨128 + f.val, by omega⟩ h))
    (fun f h => m ((c : Thread nD τ).loc main_arg3) (ix2 ⟨256 + f.val, by omega⟩ h))
    (fun h => m ((c : Thread nD τ).loc main_arg3) (ix2 ⟨384, by omega⟩ h))
    (fun h => m ((c : Thread nD τ).loc main_arg4) (ix1 h))
    (fun h g => m ((c : Thread nD τ).loc main_arg5) (ix2 h g))
    (fun g => m ((c : Thread nD τ).loc main_arg6) (ix1 g))
    (fun g => m ((c : Thread nD τ).loc main_arg7) (ix2 g 0))
    (m ((c : Thread nD τ).loc main_arg8) (ix1 0))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the two embedding tiles and the distance tile move with the output block; every weight
    window stays at its one block; the output's block indices stay in range. -/
theorem idx_facts : ∀ t : Fin cfg0.N, win0_0.index t (0 : Fin 3) = win0_12.index t (0 : Fin 3)
    ∧ win0_0.index t (1 : Fin 3) = win0_12.index t (1 : Fin 3)
    ∧ win0_0.index t (2 : Fin 3) = 0
    ∧ win0_1.index t (0 : Fin 3) = win0_12.index t (0 : Fin 3)
    ∧ win0_1.index t (1 : Fin 3) = win0_12.index t (2 : Fin 3)
    ∧ win0_1.index t (2 : Fin 3) = 0
    ∧ win0_2.index t (0 : Fin 3) = win0_12.index t (0 : Fin 3)
    ∧ win0_2.index t (1 : Fin 3) = win0_12.index t (1 : Fin 3)
    ∧ win0_2.index t (2 : Fin 3) = win0_12.index t (2 : Fin 3)
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 3) ≤ 1
    ∧ win0_12.index t (1 : Fin 3) ≤ 15
    ∧ win0_12.index t (2 : Fin 3) ≤ 3 :=
  (by decide +kernel : ∀ t : Fin grid0.N, _)

/-- Every block of the output array is some point's. -/
theorem idx_onto : ∀ (q0 : Fin 2) (q1 : Fin 16) (q2 : Fin 4), ∃ t : Fin cfg0.N, win0_12.index t = ![q0.val, q1.val, q2.val] :=
  (by decide +kernel : ∀ (q0 : Fin 2) (q1 : Fin 16) (q2 : Fin 4), ∃ t : Fin grid0.N, win0_12.index t = ![q0.val, q1.val, q2.val])

set_option maxHeartbeats 2000000 in
/-- What point `t` writes back is block `t` of the pair network's array. -/
theorem flushed_eq (c : Dev nD) (t : Fin cfg0.N) :
    (dats m ρ 0 c).flushed 12 t = ((cfg0.win 12).blk t).view.read (Elt Ideal) (pairs m c) := by
  show (cfg0.win 12).cut (grid0.coords t) ((dats m ρ 0 c).after 12 t) = _
  rw [after_12]
  unfold outBlock
  rw [View.canon_unit_zero hz3]
  unfold stored
  simp only [View.ld_unit_zero (S := S1x32x128) hz3, View.ld_unit_zero (S := S1x128x128) hz3, View.ld_unit_zero (S := S128x256) hz2,
    View.ld_unit_zero (S := S1x256) hz2, View.ld_unit_zero (S := S256x256) hz2, View.ld_unit_zero (S := S1x1) hz2]
  obtain ⟨k0, k1, k2, k3, k4, k5, k6, k7, k8, k9, k10, k11, k12, k13, k14, k15, k16, k17, k18, k19, k20, k21, k22, k23, k24, k25, k26, k27, k28, k29⟩ := idx_facts t
  funext j
  have h0 : (j 0).val < 1 := (j 0).isLt
  obtain ⟨p, q, rfl⟩ : ∃ (p : Fin 32) (q : Fin 128), j = ix3 (0 : Fin 1) p q :=
    ⟨j 1, j 2, funext fun a => by
      match a with
      | ⟨0, _⟩ => exact Fin.ext (by show (j 0).val = 0; omega)
      | ⟨1, _⟩ => rfl
      | ⟨2, _⟩ => rfl⟩
  refine (Cert.KernelIdeal.PayloadValue.payload_apply (iblk m ρ c 0 t) (iblk m ρ c 1 t) (iblk m ρ c 2 t) (iblk m ρ c 3 t) (iblk m ρ c 4 t)
    (iblk m ρ c 5 t) (iblk m ρ c 6 t) (iblk m ρ c 7 t) (iblk m ρ c 8 t) (iblk m ρ c 9 t) (iblk m ρ c 10 t) (iblk m ρ c 11 t) p q).trans ?_
  show _ = pairs m c (((cfg0.win 12).blk t).view.emb (ix3 (0 : Fin 1) p q))
  unfold pairs
  have e0 : (fun f : Fin 128 => iblk m ρ c 0 t (ix3 (0 : Fin 1) p f))
      = fun f => m ((c : Thread nD τ).loc main_arg0) (ix3 ((((cfg0.win 12).blk t).view.emb (ix3 (0 : Fin 1) p q)) 0) ((((cfg0.win 12).blk t).view.emb (ix3 (0 : Fin 1) p q)) 1) f) :=
    funext fun f => by
      show V m ρ c main_arg0 (((cfg0.win 0).blk t).view.emb (ix3 (0 : Fin 1) p f)) = _
      rw [V_arg0]
      refine congrArg _ (funext fun a => Fin.ext ?_)
      match a with
      | ⟨0, _⟩ => show win0_0.index t (0 : Fin 3) * 1 + 1 * 0 = win0_12.index t (0 : Fin 3) * 1 + 1 * 0; omega
      | ⟨1, _⟩ => show win0_0.index t (1 : Fin 3) * 32 + 1 * p.val = win0_12.index t (1 : Fin 3) * 32 + 1 * p.val; omega
      | ⟨2, _⟩ => show win0_0.index t (2 : Fin 3) * 128 + 1 * f.val = f.val; omega
  have e1 : (fun f : Fin 128 => iblk m ρ c 1 t (ix3 (0 : Fin 1) q f))
      = fun f => m ((c : Thread nD τ).loc main_arg0) (ix3 ((((cfg0.win 12).blk t).view.emb (ix3 (0 : Fin 1) p q)) 0) ((((cfg0.win 12).blk t).view.emb (ix3 (0 : Fin 1) p q)) 2) f) :=
    funext fun f => by
      show V m ρ c main_arg0 (((cfg0.win 1).blk t).view.emb (ix3 (0 : Fin 1) q f)) = _
      rw [V_arg0]
      refine congrArg _ (funext fun a => Fin.ext ?_)
      match a with
      | ⟨0, _⟩ => show win0_1.index t (0 : Fin 3) * 1 + 1 * 0 = win0_12.index t (0 : Fin 3) * 1 + 1 * 0; omega
      | ⟨1, _⟩ => show win0_1.index t (1 : Fin 3) * 128 + 1 * q.val = win0_12.index t (2 : Fin 3) * 128 + 1 * q.val; omega
      | ⟨2, _⟩ => show win0_1.index t (2 : Fin 3) * 128 + 1 * f.val = f.val; omega
  have e2 : iblk m ρ c 2 t (ix3 (0 : Fin 1) p q)
      = m ((c : Thread nD τ).loc main_arg2) (ix3 ((((cfg0.win 12).blk t).view.emb (ix3 (0 : Fin 1) p q)) 0) ((((cfg0.win 12).blk t).view.emb (ix3 (0 : Fin 1) p q)) 1) ((((cfg0.win 12).blk t).view.emb (ix3 (0 : Fin 1) p q)) 2)) := by
      show V m ρ c main_arg2 (((cfg0.win 2).blk t).view.emb (ix3 (0 : Fin 1) p q)) = _
      rw [V_arg2]
      refine congrArg _ (funext fun a => Fin.ext ?_)
      match a with
      | ⟨0, _⟩ => show win0_2.index t (0 : Fin 3) * 1 + 1 * 0 = win0_12.index t (0 : Fin 3) * 1 + 1 * 0; omega
      | ⟨1, _⟩ => show win0_2.index t (1 : Fin 3) * 32 + 1 * p.val = win0_12.index t (1 : Fin 3) * 32 + 1 * p.val; omega
      | ⟨2, _⟩ => show win0_2.index t (2 : Fin 3) * 128 + 1 * q.val = win0_12.index t (2 : Fin 3) * 128 + 1 * q.val; omega
  have e3 : (fun (f : Fin 128) (h : Fin 256) => iblk m ρ c 3 t (ix2 f h)) = fun f h => m ((c : Thread nD τ).loc main_arg3) (ix2 (⟨f.val, by omega⟩ : Fin 385) h) :=
    funext fun f => funext fun h => (by
      have hemb : ((cfg0.win 3).blk t).view.emb (ix2 f h) = ix2 f h := funext fun a => Fin.ext (by
        match a with
        | ⟨0, _⟩ => show win0_3.index t (0 : Fin 2) * 128 + 1 * (f : Fin 128).val = (f : Fin 128).val; omega
        | ⟨1, _⟩ => show win0_3.index t (1 : Fin 2) * 256 + 1 * (h : Fin 256).val = (h : Fin 256).val; omega)
      show V m ρ c main_v1 (((cfg0.win 3).blk t).view.emb (ix2 f h)) = _
      rw [hemb, V_v1_at])
  have e4 : (fun (f : Fin 128) (h : Fin 256) => iblk m ρ c 4 t (ix2 f h)) = fun f h => m ((c : Thread nD τ).loc main_arg3) (ix2 (⟨128 + f.val, by omega⟩ : Fin 385) h) :=
    funext fun f => funext fun h => (by
      have hemb : ((cfg0.win 4).blk t).view.emb (ix2 f h) = ix2 f h := funext fun a => Fin.ext (by
        match a with
        | ⟨0, _⟩ => show win0_4.index t (0 : Fin 2) * 128 + 1 * (f : Fin 128).val = (f : Fin 128).val; omega
        | ⟨1, _⟩ => show win0_4.index t (1 : Fin 2) * 256 + 1 * (h : Fin 256).val = (h : Fin 256).val; omega)
      show V m ρ c main_v3 (((cfg0.win 4).blk t).view.emb (ix2 f h)) = _
      rw [hemb, V_v3_at])
  have e5 : (fun (f : Fin 128) (h : Fin 256) => iblk m ρ c 5 t (ix2 f h)) = fun f h => m ((c : Thread nD τ).loc main_arg3) (ix2 (⟨256 + f.val, by omega⟩ : Fin 385) h) :=
    funext fun f => funext fun h => (by
      have hemb : ((cfg0.win 5).blk t).view.emb (ix2 f h) = ix2 f h := funext fun a => Fin.ext (by
        match a with
        | ⟨0, _⟩ => show win0_5.index t (0 : Fin 2) * 128 + 1 * (f : Fin 128).val = (f : Fin 128).val; omega
        | ⟨1, _⟩ => show win0_5.index t (1 : Fin 2) * 256 + 1 * (h : Fin 256).val = (h : Fin 256).val; omega)
      show V m ρ c main_v5 (((cfg0.win 5).blk t).view.emb (ix2 f h)) = _
      rw [hemb, V_v5_at])
  have e6 : (fun (h : Fin 256) => iblk m ρ c 6 t (ix2 (0 : Fin 1) h)) = fun h => m ((c : Thread nD τ).loc main_arg3) (ix2 (⟨384, by omega⟩ : Fin 385) h) :=
    funext fun h => (by
      have hemb : ((cfg0.win 6).blk t).view.emb (ix2 (0 : Fin 1) h) = ix2 (0 : Fin 1) h := funext fun a => Fin.ext (by
        match a with
        | ⟨0, _⟩ => show win0_6.index t (0 : Fin 2) * 1 + 1 * ((0 : Fin 1) : Fin 1).val = ((0 : Fin 1) : Fin 1).val; omega
        | ⟨1, _⟩ => show win0_6.index t (1 : Fin 2) * 256 + 1 * (h : Fin 256).val = (h : Fin 256).val; omega)
      show V m ρ c main_v6 (((cfg0.win 6).blk t).view.emb (ix2 (0 : Fin 1) h)) = _
      rw [hemb, V_v6_at])
  have e7 : (fun (h : Fin 256) => iblk m ρ c 7 t (ix2 (0 : Fin 1) h)) = fun h => m ((c : Thread nD τ).loc main_arg4) (ix1 h) :=
    funext fun h => (by
      have hemb : ((cfg0.win 7).blk t).view.emb (ix2 (0 : Fin 1) h) = ix2 (0 : Fin 1) h := funext fun a => Fin.ext (by
        match a with
        | ⟨0, _⟩ => show win0_7.index t (0 : Fin 2) * 1 + 1 * ((0 : Fin 1) : Fin 1).val = ((0 : Fin 1) : Fin 1).val; omega
        | ⟨1, _⟩ => show win0_7.index t (1 : Fin 2) * 256 + 1 * (h : Fin 256).val = (h : Fin 256).val; omega)
      show V m ρ c main_v7 (((cfg0.win 7).blk t).view.emb (ix2 (0 : Fin 1) h)) = _
      rw [hemb, V_v7_at])
  have e8 : (fun (h g : Fin 256) => iblk m ρ c 8 t (ix2 h g)) = fun h g => m ((c : Thread nD τ).loc main_arg5) (ix2 h g) :=
    funext fun h => funext fun g => (by
      have hemb : ((cfg0.win 8).blk t).view.emb (ix2 h g) = ix2 h g := funext fun a => Fin.ext (by
        match a with
        | ⟨0, _⟩ => show win0_8.index t (0 : Fin 2) * 256 + 1 * (h : Fin 256).val = (h : Fin 256).val; omega
        | ⟨1, _⟩ => show win0_8.index t (1 : Fin 2) * 256 + 1 * (g : Fin 256).val = (g : Fin 256).val; omega)
      show V m ρ c main_v9 (((cfg0.win 8).blk t).view.emb (ix2 h g)) = _
      rw [hemb, V_v9_at])
  have e9 : (fun (g : Fin 256) => iblk m ρ c 9 t (ix2 (0 : Fin 1) g)) = fun g => m ((c : Thread nD τ).loc main_arg6) (ix1 g) :=
    funext fun g => (by
      have hemb : ((cfg0.win 9).blk t).view.emb (ix2 (0 : Fin 1) g) = ix2 (0 : Fin 1) g := funext fun a => Fin.ext (by
        match a with
        | ⟨0, _⟩ => show win0_9.index t (0 : Fin 2) * 1 + 1 * ((0 : Fin 1) : Fin 1).val = ((0 : Fin 1) : Fin 1).val; omega
        | ⟨1, _⟩ => show win0_9.index t (1 : Fin 2) * 256 + 1 * (g : Fin 256).val = (g : Fin 256).val; omega)
      show V m ρ c main_v8 (((cfg0.win 9).blk t).view.emb (ix2 (0 : Fin 1) g)) = _
      rw [hemb, V_v8_at])
  have e10 : (fun (g : Fin 256) => iblk m ρ c 10 t (ix2 (0 : Fin 1) g)) = fun g => m ((c : Thread nD τ).loc main_arg7) (ix2 g 0) :=
    funext fun g => (by
      have hemb : ((cfg0.win 10).blk t).view.emb (ix2 (0 : Fin 1) g) = ix2 (0 : Fin 1) g := funext fun a => Fin.ext (by
        match a with
        | ⟨0, _⟩ => show win0_10.index t (0 : Fin 2) * 1 + 1 * ((0 : Fin 1) : Fin 1).val = ((0 : Fin 1) : Fin 1).val; omega
        | ⟨1, _⟩ => show win0_10.index t (1 : Fin 2) * 256 + 1 * (g : Fin 256).val = (g : Fin 256).val; omega)
      show V m ρ c main_v10 (((cfg0.win 10).blk t).view.emb (ix2 (0 : Fin 1) g)) = _
      rw [hemb, V_v10_at])
  have e11 : iblk m ρ c 11 t (ix2 (0 : Fin 1) (0 : Fin 1)) = m ((c : Thread nD τ).loc main_arg8) (ix1 0) := (by
      have hemb : ((cfg0.win 11).blk t).view.emb (ix2 (0 : Fin 1) (0 : Fin 1)) = ix2 (0 : Fin 1) (0 : Fin 1) := funext fun a => Fin.ext (by
        match a with
        | ⟨0, _⟩ => show win0_11.index t (0 : Fin 2) * 1 + 1 * ((0 : Fin 1) : Fin 1).val = ((0 : Fin 1) : Fin 1).val; omega
        | ⟨1, _⟩ => show win0_11.index t (1 : Fin 2) * 1 + 1 * ((0 : Fin 1) : Fin 1).val = ((0 : Fin 1) : Fin 1).val; omega)
      show V m ρ c main_v11 (((cfg0.win 11).blk t).view.emb (ix2 (0 : Fin 1) (0 : Fin 1))) = _
      rw [hemb, V_v11_at])
  rw [e0, e1, e2, e3, e4, e5, e6, e7, e8, e9, e10, e11]

/-- An index of the output array is in point `t`'s block iff each coordinate is in the block's range on its axis. -/
theorem mem_blk (t : Fin cfg0.N) (i : S2x512x512.Idx) :
    i ∈ ((cfg0.win 12).blk t).view.set ↔ ∀ a : Fin 3, win0_12.index t a * S1x32x128.size a ≤ (i a).val ∧ (i a).val < win0_12.index t a * S1x32x128.size a + S1x32x128.size a := by
  show i ∈ ((View.whole main_v12).slice (win0_12.rect t)).set ↔ _
  rw [View.set_slice_whole, Rect.mem_set_unit]
  exact Iff.rfl

/-- Every index of the output array is in some point's block. -/
theorem cover (i : S2x512x512.Idx) : ∃ t : Fin cfg0.N, (cfg0.win 12).flush t = true ∧ i ∈ ((cfg0.win 12).blk t).view.set := by
  have hi0 : (i 0).val < 2 := (i 0).isLt
  have hi1 : (i 1).val < 512 := (i 1).isLt
  have hi2 : (i 2).val < 512 := (i 2).isLt
  obtain ⟨t, ht⟩ := idx_onto ⟨(i 0).val, by omega⟩ ⟨(i 1).val / 32, by omega⟩ ⟨(i 2).val / 128, by omega⟩
  have q0 : win0_12.index t (0 : Fin 3) = (i 0).val := congrFun ht 0
  have q1 : win0_12.index t (1 : Fin 3) = (i 1).val / 32 := congrFun ht 1
  have q2 : win0_12.index t (2 : Fin 3) = (i 2).val / 128 := congrFun ht 2
  refine ⟨t, flush0_12 t, (mem_blk t i).mpr fun a => ?_⟩
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 32 ≤ (i 1).val ∧ (i 1).val < win0_12.index t (1 : Fin 3) * 32 + 32; omega
  | ⟨2, _⟩ => show win0_12.index t (2 : Fin 3) * 128 ≤ (i 2).val ∧ (i 2).val < win0_12.index t (2 : Fin 3) * 128 + 128; omega

/-- The output array when the region ends: the pair network at every ordered pair. -/
theorem final (c : Dev nD) : outArr m ρ c = pairs m c :=
  (dats m ρ 0 c).arrAt_eq_of_cover 12 (pairs m c) (fun t _ => flushed_eq m ρ c t) (cover)

end Cert.KernelIdeal.Run

end
-- ==== Proof.KiResult.lean ====
/-
  The program's result: the host operations after the region — the array plus its transpose in the last two axes,
  halved, times the mask that is zero on the diagonal and one elsewhere — applied to the pair network's array.
-/
import proofs.«170733_j62732292325617_2_alg».proof.Proof.KiValue

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.StableHlo Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The operations after the region, as one function of the region's output array. -/
def tailK (P : FVec Ideal S2x512x512 .f32) : FVec Ideal S2x512x512 .f32 :=
  mulf (mulf (broadcastInDim S2x512x512 ![] bcast_S_S2x512x512 (constant (F := Ideal) S_ .f32 0x3F000000#32)) (addf P (transpose S2x512x512 [0, 2, 1] P transposes_S2x512x512_S2x512x512_0_2_1))) (broadcastInDim S2x512x512 ![0, 1, 2] bcast_S1x512x512_S2x512x512_0_1_2 (broadcastInDim S1x512x512 ![1, 2] bcast_S512x512_S1x512x512_1_2 (subf (broadcastInDim S512x512 ![] bcast_S_S512x512 (constant (F := Ideal) S_ .f32 0x3F800000#32)) (uitofp .f32 (cmpi .eq (addi (iotaInDim S512x512 32 0) (broadcastInDim S512x512 ![] bcast_S_S512x512 (constantI S_ 32 0#32))) (iotaInDim S512x512 32 1))))))

set_option maxHeartbeats 1000000 in
/-- The result buffer after the last host operations is that function of the output array. -/
theorem result_eq (c : Dev nD) :
    StableHlo.after hostOps1 (V1 m ρ c) (Proc.devRef .tc main_v27) = tailK (outArr m ρ c) := by
  dsimp only [hostOps1]; after_results
  rw [V1_self]
  rfl

/-- The run, read: the result is the last operations applied to the pair network's array, and every argument array
    ends as launched. -/
theorem value_run : θ_run defs (onTc (τ := τ) (main (F := Ideal))) ⟨m, fun _ => 0, ρ⟩ (fun r => ∀ c : Dev nD,
      r.2.mem ((c.tc : Thread nD τ).loc main_v27) = tailK (pairs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c _ (mem_uc main_v27 rfl)).trans (result_eq m ρ c)).trans (congrArg tailK (final m ρ c)),
      (h c _ (mem_uc main_arg0 rfl)).trans (kept_arg0 m ρ c),
      (h c _ (mem_uc main_arg1 rfl)).trans (kept_arg1 m ρ c),
      (h c _ (mem_uc main_arg2 rfl)).trans (kept_arg2 m ρ c),
      (h c _ (mem_uc main_arg3 rfl)).trans (kept_arg3 m ρ c),
      (h c _ (mem_uc main_arg4 rfl)).trans (kept_arg4 m ρ c),
      (h c _ (mem_uc main_arg5 rfl)).trans (kept_arg5 m ρ c),
      (h c _ (mem_uc main_arg6 rfl)).trans (kept_arg6 m ρ c),
      (h c _ (mem_uc main_arg7 rfl)).trans (kept_arg7 m ρ c),
      (h c _ (mem_uc main_arg8 rfl)).trans (kept_arg8 m ρ c)⟩) (run_main m ρ)

end Cert.KernelIdeal.Run

end
-- ==== Proof.RefValue.lean ====
/-
  The reference program's result, read one ordered pair of nodes at a time, over the extended reals.

  For every ordered pair (b, i, j) the reference lays 385 features side by side — node i's 128-entry row, node j's row,
  the 128 absolute differences |xi − xj|, and the pair's distance — and feeds them through three layers:
  x·W1 + b1, max(·, 0), ·W2 + b2, max(·, 0), ·W3 + b3. A sum over the 385 consecutive positions is the sum of its four
  consecutive parts (128 + 128 + 128 + 1), so the first layer is the four partial products of Cert.PairMlp.hid1 with the
  first matrix cut into three 128-row bands and its last row; moving the bias next to the first partial product uses
  only that addition on the extended reals is commutative and associative, so nothing is assumed finite.
  Stage P, the output reshaped to one value per ordered pair, is therefore Cert.PairMlp.out at every pair, and the
  reference's result is the remaining operations ('tail': symmetrize, halve, zero the diagonal) applied to it.
-/
import proofs.«170733_j62732292325617_2_alg».proof.Proof.Gen.ReferenceIdeal.Read
import proofs.«170733_j62732292325617_2_alg».proof.Proof.Spec
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx
open scoped BigOperators

/-- A sum over 385 = 128 + 128 + 128 + 1 consecutive positions is the sum of its four consecutive parts. -/
theorem sum_fin385 (G : Fin 385 → EReal) :
    ∑ k : Fin 385, G k = (((∑ f : Fin 128, G ⟨f.val, by omega⟩) + ∑ f : Fin 128, G ⟨128 + f.val, by omega⟩)
      + ∑ f : Fin 128, G ⟨256 + f.val, by omega⟩) + G ⟨384, by omega⟩ := by
  have h1 := Fin.sum_univ_castSucc (n := 128 + 128 + 128) G
  have h2 := Fin.sum_univ_add (a := 128 + 128) (b := 128) (fun i : Fin (128 + 128 + 128) => G (Fin.castSucc i))
  have h3 := Fin.sum_univ_add (a := 128) (b := 128) (fun i : Fin (128 + 128) => G (Fin.castSucc (Fin.castAdd 128 i)))
  refine h1.trans ?_
  rw [h2, h3]
  rfl

/-- The bias, added last by the reference, may be added right after the first partial product. -/
theorem add_bias_reorder (s1 s2 s3 e b : EReal) : (((s1 + s2) + s3) + e) + b = (((s1 + b) + s2) + s3) + e := by
  abel

/-- The 385 features at a position in the first part: node i's row. -/
theorem v11_at_0 (x0 : (⟨S2x512x128, .f32⟩ : BufTy).Contents (Elt Ideal)) (x2 : (⟨S2x512x512, .f32⟩ : BufTy).Contents (Elt Ideal))
    (a : Fin 2) (b cc : Fin 512) (f : Fin 128) :
    val_main_v11 (F := Ideal) x0 x2 (ix4 a b cc (⟨f.val, by omega⟩ : Fin 385)) = x0 (ix3 a b f) := by
  unfold val_main_v11
  rw [concatenate_apply_piece (3 : Fin 4) _ _ (ix4 a b cc (⟨f.val, by omega⟩ : Fin 385)) 0 (by simp) S2x512x512x128 (val_main_v1 (F := Ideal) x0) rfl rfl 0 rfl (ix4 a b cc f)
    (fun d hd => by match d with | ⟨0, _⟩ => rfl | ⟨1, _⟩ => rfl | ⟨2, _⟩ => rfl | ⟨3, _⟩ => exact absurd rfl hd) (by simp),
    val_main_v1_apply, val_main_v0_apply]
  exact congrArg x0 (funext fun d => by match d with | ⟨0, _⟩ => rfl | ⟨1, _⟩ => rfl | ⟨2, _⟩ => rfl)

/-- The 385 features at a position in the second part: node j's row. -/
theorem v11_at_1 (x0 : (⟨S2x512x128, .f32⟩ : BufTy).Contents (Elt Ideal)) (x2 : (⟨S2x512x512, .f32⟩ : BufTy).Contents (Elt Ideal))
    (a : Fin 2) (b cc : Fin 512) (f : Fin 128) :
    val_main_v11 (F := Ideal) x0 x2 (ix4 a b cc (⟨128 + f.val, by omega⟩ : Fin 385)) = x0 (ix3 a cc f) := by
  unfold val_main_v11
  rw [concatenate_apply_piece (3 : Fin 4) _ _ (ix4 a b cc (⟨128 + f.val, by omega⟩ : Fin 385)) 1 (by simp) S2x512x512x128 (val_main_v3 (F := Ideal) x0) rfl rfl 128 rfl (ix4 a b cc f)
    (fun d hd => by match d with | ⟨0, _⟩ => rfl | ⟨1, _⟩ => rfl | ⟨2, _⟩ => rfl | ⟨3, _⟩ => exact absurd rfl hd) rfl,
    val_main_v3_apply, val_main_v2_apply]
  exact congrArg x0 (funext fun d => by match d with | ⟨0, _⟩ => rfl | ⟨1, _⟩ => rfl | ⟨2, _⟩ => rfl)

/-- The 385 features at a position in the third part: the absolute difference of the two rows' entries,
    the absolute value of an extended real `d` being `max d (-d)`. -/
theorem v11_at_2 (x0 : (⟨S2x512x128, .f32⟩ : BufTy).Contents (Elt Ideal)) (x2 : (⟨S2x512x512, .f32⟩ : BufTy).Contents (Elt Ideal))
    (a : Fin 2) (b cc : Fin 512) (f : Fin 128) :
    val_main_v11 (F := Ideal) x0 x2 (ix4 a b cc (⟨256 + f.val, by omega⟩ : Fin 385))
      = max (x0 (ix3 a b f) - x0 (ix3 a cc f)) (-(x0 (ix3 a b f) - x0 (ix3 a cc f))) := by
  unfold val_main_v11
  rw [concatenate_apply_piece (3 : Fin 4) _ _ (ix4 a b cc (⟨256 + f.val, by omega⟩ : Fin 385)) 2 (by simp) S2x512x512x128 (val_main_v9 (F := Ideal) x0) rfl rfl 256 rfl (ix4 a b cc f)
    (fun d hd => by match d with | ⟨0, _⟩ => rfl | ⟨1, _⟩ => rfl | ⟨2, _⟩ => rfl | ⟨3, _⟩ => exact absurd rfl hd) rfl,
    val_main_v9_apply, val_main_v8_apply, val_main_v6_apply, val_main_v4_apply, val_main_v7_apply, val_main_v5_apply]
  have e1 : idx_main_v4 (idx_main_v6 (ix4 a b cc f)) = ix3 a b f :=
    funext fun d => by match d with | ⟨0, _⟩ => rfl | ⟨1, _⟩ => rfl | ⟨2, _⟩ => rfl
  have e2 : idx_main_v5 (idx_main_v7 (ix4 a b cc f)) = ix3 a cc f :=
    funext fun d => by match d with | ⟨0, _⟩ => rfl | ⟨1, _⟩ => rfl | ⟨2, _⟩ => rfl
  rw [e1, e2]
  rfl

/-- The 385 features at the last position: the pair's distance. -/
theorem v11_at_3 (x0 : (⟨S2x512x128, .f32⟩ : BufTy).Contents (Elt Ideal)) (x2 : (⟨S2x512x512, .f32⟩ : BufTy).Contents (Elt Ideal))
    (a : Fin 2) (b cc : Fin 512) :
    val_main_v11 (F := Ideal) x0 x2 (ix4 a b cc (⟨384, by omega⟩ : Fin 385)) = x2 (ix3 a b cc) := by
  unfold val_main_v11
  rw [concatenate_apply_piece (3 : Fin 4) _ _ (ix4 a b cc (⟨384, by omega⟩ : Fin 385)) 3 (by simp) S2x512x512x1 (val_main_v10 (F := Ideal) x2) rfl rfl 384 rfl (ix4 a b cc (0 : Fin 1))
    (fun d hd => by match d with | ⟨0, _⟩ => rfl | ⟨1, _⟩ => rfl | ⟨2, _⟩ => rfl | ⟨3, _⟩ => exact absurd rfl hd) rfl,
    val_main_v10_apply]
  exact congrArg x2 (funext fun d => by match d with | ⟨0, _⟩ => rfl | ⟨1, _⟩ => rfl | ⟨2, _⟩ => rfl)

section Layers

variable (x0 : (⟨S2x512x128, .f32⟩ : BufTy).Contents (Elt Ideal)) (x2 : (⟨S2x512x512, .f32⟩ : BufTy).Contents (Elt Ideal))
  (x3 : (⟨S385x256, .f32⟩ : BufTy).Contents (Elt Ideal)) (x4 : (⟨S256, .f32⟩ : BufTy).Contents (Elt Ideal))
  (x5 : (⟨S256x256, .f32⟩ : BufTy).Contents (Elt Ideal)) (x6 : (⟨S256, .f32⟩ : BufTy).Contents (Elt Ideal))
  (x7 : (⟨S256x1, .f32⟩ : BufTy).Contents (Elt Ideal)) (x8 : (⟨S1, .f32⟩ : BufTy).Contents (Elt Ideal))

/-- The first hidden layer of the reference, read at one pair and one unit. -/
theorem v16_at (a : Fin 2) (b cc : Fin 512) (h : Fin 256) :
    val_main_v16 (F := Ideal) x0 x2 x3 x4 (ix4 a b cc h)
      = Cert.PairMlp.hid1 (fun f => x0 (ix3 a b f)) (fun f => x0 (ix3 a cc f)) (x2 (ix3 a b cc))
          (fun f h => x3 (ix2 ⟨f.val, by omega⟩ h)) (fun f h => x3 (ix2 ⟨128 + f.val, by omega⟩ h))
          (fun f h => x3 (ix2 ⟨256 + f.val, by omega⟩ h)) (fun h => x3 (ix2 ⟨384, by omega⟩ h)) (fun h => x4 (ix1 h)) h := by
  have el : ∀ k : Fin 385, lidx_main_v12 (ix4 a b cc h) k = ix4 a b cc k := fun k =>
    funext fun d => by match d with | ⟨0, _⟩ => rfl | ⟨1, _⟩ => rfl | ⟨2, _⟩ => rfl | ⟨3, _⟩ => rfl
  have er : ∀ k : Fin 385, ridx_main_v12 (ix4 a b cc h) k = ix2 k h := fun k =>
    funext fun d => by match d with | ⟨0, _⟩ => rfl | ⟨1, _⟩ => rfl
  have eb : idx_main_v13 (idx_main_v14 (ix4 a b cc h)) = ix1 h :=
    funext fun d => by match d with | ⟨0, _⟩ => rfl
  rw [val_main_v16_apply, val_main_v15_apply, val_main_v12_apply, val_main_v14_apply, val_main_v13_apply,
    val_main_call0_v0_apply, val_main_call0_cst_apply, eb]
  simp only [el, er]
  rw [sum_fin385]
  simp only [v11_at_0, v11_at_1, v11_at_2, v11_at_3]
  show max (_ + _) (Ideal.ofBits .f32 0x00000000#32) = _
  rw [Ideal.ofBits_zero_f32, add_bias_reorder]
  rfl

/-- The second hidden layer of the reference, read at one pair and one unit. -/
theorem v21_at (a : Fin 2) (b cc : Fin 512) (g : Fin 256) :
    val_main_v21 (F := Ideal) x0 x2 x3 x4 x5 x6 (ix4 a b cc g)
      = Cert.PairMlp.hid2 (fun f => x0 (ix3 a b f)) (fun f => x0 (ix3 a cc f)) (x2 (ix3 a b cc))
          (fun f h => x3 (ix2 ⟨f.val, by omega⟩ h)) (fun f h => x3 (ix2 ⟨128 + f.val, by omega⟩ h))
          (fun f h => x3 (ix2 ⟨256 + f.val, by omega⟩ h)) (fun h => x3 (ix2 ⟨384, by omega⟩ h)) (fun h => x4 (ix1 h))
          (fun h g => x5 (ix2 h g)) (fun g => x6 (ix1 g)) g := by
  have el : ∀ k : Fin 256, lidx_main_v17 (ix4 a b cc g) k = ix4 a b cc k := fun k =>
    funext fun d => by match d with | ⟨0, _⟩ => rfl | ⟨1, _⟩ => rfl | ⟨2, _⟩ => rfl | ⟨3, _⟩ => rfl
  have er : ∀ k : Fin 256, ridx_main_v17 (ix4 a b cc g) k = ix2 k g := fun k =>
    funext fun d => by match d with | ⟨0, _⟩ => rfl | ⟨1, _⟩ => rfl
  have eb : idx_main_v18 (idx_main_v19 (ix4 a b cc g)) = ix1 g :=
    funext fun d => by match d with | ⟨0, _⟩ => rfl
  rw [val_main_v21_apply, val_main_v20_apply, val_main_v17_apply, val_main_v19_apply, val_main_v18_apply,
    val_main_call1_v0_apply, val_main_call1_cst_apply, eb]
  simp only [el, er, v16_at]
  show max (_ + _) (Ideal.ofBits .f32 0x00000000#32) = _
  rw [Ideal.ofBits_zero_f32]
  rfl

/-- The output layer of the reference, read at one pair. -/
theorem v25_at (a : Fin 2) (b cc : Fin 512) :
    val_main_v25 (F := Ideal) x0 x2 x3 x4 x5 x6 x7 x8 (ix4 a b cc (0 : Fin 1))
      = Cert.PairMlp.out (fun f => x0 (ix3 a b f)) (fun f => x0 (ix3 a cc f)) (x2 (ix3 a b cc))
          (fun f h => x3 (ix2 ⟨f.val, by omega⟩ h)) (fun f h => x3 (ix2 ⟨128 + f.val, by omega⟩ h))
          (fun f h => x3 (ix2 ⟨256 + f.val, by omega⟩ h)) (fun h => x3 (ix2 ⟨384, by omega⟩ h)) (fun h => x4 (ix1 h))
          (fun h g => x5 (ix2 h g)) (fun g => x6 (ix1 g)) (fun g => x7 (ix2 g 0)) (x8 (ix1 0)) := by
  have el : ∀ k : Fin 256, lidx_main_v22 (ix4 a b cc (0 : Fin 1)) k = ix4 a b cc k := fun k =>
    funext fun d => by match d with | ⟨0, _⟩ => rfl | ⟨1, _⟩ => rfl | ⟨2, _⟩ => rfl | ⟨3, _⟩ => rfl
  have er : ∀ k : Fin 256, ridx_main_v22 (ix4 a b cc (0 : Fin 1)) k = ix2 k (0 : Fin 1) := fun k =>
    funext fun d => by match d with | ⟨0, _⟩ => rfl | ⟨1, _⟩ => rfl
  have eb : idx_main_v23 (idx_main_v24 (ix4 a b cc (0 : Fin 1))) = ix1 (0 : Fin 1) :=
    funext fun d => by match d with | ⟨0, _⟩ => rfl
  rw [val_main_v25_apply, val_main_v22_apply, val_main_v24_apply, val_main_v23_apply, eb]
  simp only [el, er, v21_at]
  rfl

/-- Stage P — the network's output reshaped to one value per ordered pair — read at a pair. -/
theorem v26_at (idx : S2x512x512.Idx) :
    val_main_v26 (F := Ideal) x0 x2 x3 x4 x5 x6 x7 x8 idx
      = Cert.PairMlp.out (fun f => x0 (ix3 (idx 0) (idx 1) f)) (fun f => x0 (ix3 (idx 0) (idx 2) f)) (x2 (ix3 (idx 0) (idx 1) (idx 2)))
          (fun f h => x3 (ix2 ⟨f.val, by omega⟩ h)) (fun f h => x3 (ix2 ⟨128 + f.val, by omega⟩ h))
          (fun f h => x3 (ix2 ⟨256 + f.val, by omega⟩ h)) (fun h => x3 (ix2 ⟨384, by omega⟩ h)) (fun h => x4 (ix1 h))
          (fun h g => x5 (ix2 h g)) (fun g => x6 (ix1 g)) (fun g => x7 (ix2 g 0)) (x8 (ix1 0)) := by
  have e : idx_main_v26 idx = ix4 (idx 0) (idx 1) (idx 2) (0 : Fin 1) := funext fun d => Fin.ext (by
    have h0 : (idx 0).val < 2 := (idx 0).isLt
    have h1 : (idx 1).val < 512 := (idx 1).isLt
    have h2 : (idx 2).val < 512 := (idx 2).isLt
    match d with
    | ⟨0, _⟩ => show (((idx 0).val * 512 + (idx 1).val) * 512 + (idx 2).val) / 262144 = (idx 0).val; omega
    | ⟨1, _⟩ => show (((idx 0).val * 512 + (idx 1).val) * 512 + (idx 2).val) / 512 % 512 = (idx 1).val; omega
    | ⟨2, _⟩ => show (((idx 0).val * 512 + (idx 1).val) * 512 + (idx 2).val) / 1 % 512 = (idx 2).val; omega
    | ⟨3, _⟩ => rfl)
  rw [val_main_v26_apply, e]
  exact v25_at x0 x2 x3 x4 x5 x6 x7 x8 (idx 0) (idx 1) (idx 2)

end Layers

/-- The reference's last fifteen operations, applied to stage P: the symmetric part (P + Pᵀ)·½, times the mask that is
    zero on the diagonal and one off it. -/
def tail (P : FVec Ideal S2x512x512 .f32) : FVec Ideal S2x512x512 .f32 :=
  mulf (mulf (broadcastInDim S2x512x512 ![] bcast_S_S2x512x512 (constant (F := Ideal) S_ .f32 0x3F000000#32)) (addf P (transpose S2x512x512 [0, 2, 1] P transposes_S2x512x512_S2x512x512_0_2_1))) (broadcastInDim S2x512x512 ![0, 1, 2] bcast_S1x512x512_S2x512x512_0_1_2 (broadcastInDim S1x512x512 ![1, 2] bcast_S512x512_S1x512x512_1_2 (subf (broadcastInDim S512x512 ![] bcast_S_S512x512 (constant (F := Ideal) S_ .f32 0x3F800000#32)) (uitofp .f32 (cmpi .eq (addi (iotaInDim S512x512 32 0) (broadcastInDim S512x512 ![] bcast_S_S512x512 (constantI S_ 32 0#32))) (iotaInDim S512x512 32 1))))))

/-- The reference's result is the tail of the pair network's outputs: at every ordered pair (b, i, j), stage P is the
    network on node i's row, node j's row and their distance, with the first layer's matrix cut into its three
    128-row bands and its last row. -/
theorem res_eq (m : (ℓ : Loc nD τ sig) → Buf (Elt Ideal) ℓ) (c : Dev nD) :
    Cert.ReferenceIdeal.Value.res_main_v41 (F := Ideal) m c
      = tail (fun idx => Cert.PairMlp.out
          (fun f => m ((c.tc : Thread nD τ).loc main_arg0) (ix3 (idx 0) (idx 1) f))
          (fun f => m ((c.tc : Thread nD τ).loc main_arg0) (ix3 (idx 0) (idx 2) f))
          (m ((c.tc : Thread nD τ).loc main_arg2) (ix3 (idx 0) (idx 1) (idx 2)))
          (fun f h => m ((c.tc : Thread nD τ).loc main_arg3) (ix2 ⟨f.val, by omega⟩ h))
          (fun f h => m ((c.tc : Thread nD τ).loc main_arg3) (ix2 ⟨128 + f.val, by omega⟩ h))
          (fun f h => m ((c.tc : Thread nD τ).loc main_arg3) (ix2 ⟨256 + f.val, by omega⟩ h))
          (fun h => m ((c.tc : Thread nD τ).loc main_arg3) (ix2 ⟨384, by omega⟩ h))
          (fun h => m ((c.tc : Thread nD τ).loc main_arg4) (ix1 h))
          (fun h g => m ((c.tc : Thread nD τ).loc main_arg5) (ix2 h g))
          (fun g => m ((c.tc : Thread nD τ).loc main_arg6) (ix1 g))
          (fun g => m ((c.tc : Thread nD τ).loc main_arg7) (ix2 g 0))
          (m ((c.tc : Thread nD τ).loc main_arg8) (ix1 0))) := by
  refine (val_main_v41_eq (F := Ideal) m c).trans ?_
  refine Eq.trans (b := tail (val_main_v26 (F := Ideal) (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)))) rfl ?_
  exact congrArg tail (funext fun idx => v26_at _ _ _ _ _ _ _ _ idx)

end Cert.ReferenceIdeal.RefValue

end
-- ==== Proof.lean ====
/-
  The certificate of the pairwise MLP kernel against its reference.

  Both programs compute, for every ordered pair (b, i, j) of nodes, a three-layer network on the features
  (row i, row j, |row i − row j|, distance(i, j)), then symmetrize the result over (i, j), halve it and zero its diagonal.
  The kernel never lays the 385 features side by side: it applies the first layer's matrix band by band, which gives
  the same sum because addition on the extended reals is commutative and associative. Read exactly, the two programs
  are therefore one function of their arguments, and no finiteness of the inputs is used.

  The kernel's three frames: the host operations before the region, the region over its grid of 2 · 16 · 4 points
  with the embeddings array read through two windows at once, the host operations after it; nothing but the region's
  output array and the host operations' own results is ever written. The reference is a straight line of host
  operations, and its frame is its run with the result dropped. The idealization rewrote nothing.
-/
import proofs.«170733_j62732292325617_2_alg».proof.Defs
import proofs.«170733_j62732292325617_2_alg».proof.Proof.Gen.Kernel
import proofs.«170733_j62732292325617_2_alg».proof.Proof.Gen.KernelIdeal
import proofs.«170733_j62732292325617_2_alg».proof.Proof.Gen.ReferenceIdeal
import proofs.«170733_j62732292325617_2_alg».proof.Proof.Gen.Pre_finite_inputs
import proofs.«170733_j62732292325617_2_alg».proof.Proof.Gen.ReferenceIdeal.Run
import proofs.«170733_j62732292325617_2_alg».proof.Proof.Gen.ReferenceIdeal.Read
import proofs.«170733_j62732292325617_2_alg».proof.Proof.KbFrame
import proofs.«170733_j62732292325617_2_alg».proof.Proof.KiResult
import proofs.«170733_j62732292325617_2_alg».proof.Proof.RefValue

noncomputable section

namespace Cert.Proof

open Idealize.ShloMosaic Idealize.SL.Sem

/-- The kernel as printed runs to the end, faults nowhere and leaves its arguments unchanged. -/
theorem frame_k : Cert.frame_Kernel := fun m ρ _ => Cert.Kernel.Run.frame m ρ

/-- So does its idealization. -/
theorem frame_ki : Cert.frame_KernelIdeal := fun m ρ _ => Cert.KernelIdeal.Run.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, both idealized programs end with the same result: the operations after
    the pair network (symmetrize, halve, zero the diagonal) applied to the pair network at every ordered pair. -/
theorem algebraic : Cert.algebraic_KernelIdeal_ReferenceIdeal := by
  intro m ρ m' ρ' _ hagree
  refine ⟨fun c => Cert.KernelIdeal.Run.tailK (Cert.KernelIdeal.Run.pairs m c), Cert.KernelIdeal.Run.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq]
  obtain ⟨a0, a1, a2, a3, a4, a5, a6, a7, a8⟩ := hagree c
  rw [a0, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
